-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x48x48x48 : Shape := ⟨5, ![2, 16, 48, 48, 48]⟩
abbrev S_ : Shape := ⟨0, ![]⟩

class Facts : Prop where
  bcast_S_S2x16x48x48x48 : S_.BroadcastsInDim S2x16x48x48x48 (![] : Fin 0 → Fin S2x16x48x48x48.rank)
  reducesTo_S2x16x48x48x48_S_d0_1_2_3_4 : S2x16x48x48x48.ReducesTo [0, 1, 2, 3, 4] S_
  h_S_ : 0 < S_.numel

variable [Facts]

def fn {F : FTy → Type} [FloatOps F] (main_arg0 : FVec F S2x16x48x48x48 .f32) : IVec S_ 1 :=
  let main_v0 : FVec F S2x16x48x48x48 .f32 := Host.absf main_arg0
  let main_cst : FVec F S_ .f32 := constant S_ .f32 0x7F800000#32
  let main_v1 : FVec F S2x16x48x48x48 .f32 := broadcastInDim S2x16x48x48x48 ![] bcast_S_S2x16x48x48x48 main_cst
  let main_v2 : IVec S2x16x48x48x48 1 := cmpf .olt main_v0 main_v1
  let main_c : IVec S_ 1 := constantI S_ 1 1#1
  let main_v3 : IVec S_ 1 := (fun x v => Host.reduce IntOp.andi x v reducesTo_S2x16x48x48x48_S_d0_1_2_3_4 h_S_) main_v2 main_c
  main_v3
-- ==== Kernel.lean ====
abbrev S2x16x48x48x48 : Shape := ⟨5, ![2, 16, 48, 48, 48]⟩
abbrev S2x16x48x2304 : Shape := ⟨4, ![2, 16, 48, 2304]⟩
abbrev S2x16x27x48x2304 : Shape := ⟨5, ![2, 16, 27, 48, 2304]⟩
abbrev S1x1x48x2304 : Shape := ⟨4, ![1, 1, 48, 2304]⟩
abbrev S1x1x27x48x2304 : Shape := ⟨5, ![1, 1, 27, 48, 2304]⟩
abbrev S50x2304 : Shape := ⟨2, ![50, 2304]⟩
abbrev S1x2304 : Shape := ⟨2, ![1, 2304]⟩
abbrev S48x2304 : Shape := ⟨2, ![48, 2304]⟩
abbrev S1x1x1x48x2304 : Shape := ⟨5, ![1, 1, 1, 48, 2304]⟩
abbrev S2x432x110592 : Shape := ⟨3, ![2, 432, 110592]⟩

abbrev nBuf : Space → Nat
  | .hbm => 4
  | .vmem => 5
  | .smem => 0
  | _ => 0

abbrev bufTy : (tb : Table) → Fin (tcTables nBuf tb) → BufTy
  | .hbm, ⟨0, _⟩ => ⟨S2x16x48x48x48, .f32⟩
  | .hbm, ⟨1, _⟩ => ⟨S2x16x48x2304, .f32⟩
  | .hbm, ⟨2, _⟩ => ⟨S2x16x27x48x2304, .f32⟩
  | .hbm, ⟨3, _⟩ => ⟨S2x432x110592, .f32⟩
  | .local _ .vmem, ⟨0, _⟩ => ⟨S1x1x48x2304, .f32⟩
  | .local _ .vmem, ⟨1, _⟩ => ⟨S1x1x48x2304, .f32⟩
  | .local _ .vmem, ⟨2, _⟩ => ⟨S1x1x27x48x2304, .f32⟩
  | .local _ .vmem, ⟨3, _⟩ => ⟨S1x1x27x48x2304, .f32⟩
  | .local _ .vmem, ⟨4, _⟩ => ⟨S50x2304, .f32⟩
  | _, _ => ⟨S2x16x48x48x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x1x48x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x27x48x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  shapeCasts_S2x16x48x48x48_S2x16x48x2304 : S2x16x48x48x48.ShapeCasts S2x16x48x2304
  inb_S50x2304_S1x2304_0_0 : ∀ a, (![0, 0] : Fin 2 → Nat) a + S1x2304.size a ≤ S50x2304.size a
  h_S1x2304 : 0 < S1x2304.numel
  shapeCasts_S1x2304_S1x2304 : S1x2304.ShapeCasts S1x2304
  inb_S50x2304_S1x2304_49_0 : ∀ a, (![49, 0] : Fin 2 → Nat) a + S1x2304.size a ≤ S50x2304.size a
  inb_S1x1x48x2304_S1x1x48x2304_0_0_0_0 : ∀ a, (![0, 0, 0, 0] : Fin 4 → Nat) a + S1x1x48x2304.size a ≤ S1x1x48x2304.size a
  h_S1x1x48x2304 : 0 < S1x1x48x2304.numel
  shapeCasts_S1x1x48x2304_S48x2304 : S1x1x48x2304.ShapeCasts S48x2304
  inb_S50x2304_S48x2304_1_0 : ∀ a, (![1, 0] : Fin 2 → Nat) a + S48x2304.size a ≤ S50x2304.size a
  h_S48x2304 : 0 < S48x2304.numel
  shapeCasts_S48x2304_S48x2304 : S48x2304.ShapeCasts S48x2304
  iota_S1x2304_d1_w32 : S1x2304.Iotas .tc 32 [1]
  natLt_1_32 : 1 < 32
  inb_S50x2304_S50x2304_0_0 : ∀ a, (![0, 0] : Fin 2 → Nat) a + S50x2304.size a ≤ S50x2304.size a
  h_S50x2304 : 0 < S50x2304.numel
  rotates_S50x2304_d1 : S50x2304.Rotates 1 none
  slices_S50x2304_o0_0_S48x2304 : S50x2304.Slices ![0, 0] S48x2304
  broadcasts_S1x2304_S48x2304 : S1x2304.Broadcasts S48x2304
  inb_S1x1x27x48x2304_S1x1x1x48x2304_0_0_0_0_0 : ∀ a, (![0, 0, 0, 0, 0] : Fin 5 → Nat) a + S1x1x1x48x2304.size a ≤ S1x1x27x48x2304.size a
  h_S1x1x1x48x2304 : 0 < S1x1x1x48x2304.numel
  shapeCasts_S1x1x1x48x2304_S48x2304 : S1x1x1x48x2304.ShapeCasts S48x2304
  shapeCasts_S48x2304_S1x1x1x48x2304 : S48x2304.ShapeCasts S1x1x1x48x2304
  slices_S50x2304_o1_0_S48x2304 : S50x2304.Slices ![1, 0] S48x2304
  inb_S1x1x27x48x2304_S1x1x1x48x2304_0_0_9_0_0 : ∀ a, (![0, 0, 9, 0, 0] : Fin 5 → Nat) a + S1x1x1x48x2304.size a ≤ S1x1x27x48x2304.size a
  slices_S50x2304_o2_0_S48x2304 : S50x2304.Slices ![2, 0] S48x2304
  inb_S1x1x27x48x2304_S1x1x1x48x2304_0_0_18_0_0 : ∀ a, (![0, 0, 18, 0, 0] : Fin 5 → Nat) a + S1x1x1x48x2304.size a ≤ S1x1x27x48x2304.size a
  inb_S1x1x27x48x2304_S1x1x1x48x2304_0_0_1_0_0 : ∀ a, (![0, 0, 1, 0, 0] : Fin 5 → Nat) a + S1x1x1x48x2304.size a ≤ S1x1x27x48x2304.size a
  inb_S1x1x27x48x2304_S1x1x1x48x2304_0_0_10_0_0 : ∀ a, (![0, 0, 10, 0, 0] : Fin 5 → Nat) a + S1x1x1x48x2304.size a ≤ S1x1x27x48x2304.size a
  inb_S1x1x27x48x2304_S1x1x1x48x2304_0_0_19_0_0 : ∀ a, (![0, 0, 19, 0, 0] : Fin 5 → Nat) a + S1x1x1x48x2304.size a ≤ S1x1x27x48x2304.size a
  inb_S1x1x27x48x2304_S1x1x1x48x2304_0_0_2_0_0 : ∀ a, (![0, 0, 2, 0, 0] : Fin 5 → Nat) a + S1x1x1x48x2304.size a ≤ S1x1x27x48x2304.size a
  inb_S1x1x27x48x2304_S1x1x1x48x2304_0_0_11_0_0 : ∀ a, (![0, 0, 11, 0, 0] : Fin 5 → Nat) a + S1x1x1x48x2304.size a ≤ S1x1x27x48x2304.size a
  inb_S1x1x27x48x2304_S1x1x1x48x2304_0_0_20_0_0 : ∀ a, (![0, 0, 20, 0, 0] : Fin 5 → Nat) a + S1x1x1x48x2304.size a ≤ S1x1x27x48x2304.size a
  inb_S1x1x27x48x2304_S1x1x1x48x2304_0_0_3_0_0 : ∀ a, (![0, 0, 3, 0, 0] : Fin 5 → Nat) a + S1x1x1x48x2304.size a ≤ S1x1x27x48x2304.size a
  inb_S1x1x27x48x2304_S1x1x1x48x2304_0_0_12_0_0 : ∀ a, (![0, 0, 12, 0, 0] : Fin 5 → Nat) a + S1x1x1x48x2304.size a ≤ S1x1x27x48x2304.size a
  inb_S1x1x27x48x2304_S1x1x1x48x2304_0_0_21_0_0 : ∀ a, (![0, 0, 21, 0, 0] : Fin 5 → Nat) a + S1x1x1x48x2304.size a ≤ S1x1x27x48x2304.size a
  inb_S1x1x27x48x2304_S1x1x1x48x2304_0_0_4_0_0 : ∀ a, (![0, 0, 4, 0, 0] : Fin 5 → Nat) a + S1x1x1x48x2304.size a ≤ S1x1x27x48x2304.size a
  inb_S1x1x27x48x2304_S1x1x1x48x2304_0_0_13_0_0 : ∀ a, (![0, 0, 13, 0, 0] : Fin 5 → Nat) a + S1x1x1x48x2304.size a ≤ S1x1x27x48x2304.size a
  inb_S1x1x27x48x2304_S1x1x1x48x2304_0_0_22_0_0 : ∀ a, (![0, 0, 22, 0, 0] : Fin 5 → Nat) a + S1x1x1x48x2304.size a ≤ S1x1x27x48x2304.size a
  inb_S1x1x27x48x2304_S1x1x1x48x2304_0_0_5_0_0 : ∀ a, (![0, 0, 5, 0, 0] : Fin 5 → Nat) a + S1x1x1x48x2304.size a ≤ S1x1x27x48x2304.size a
  inb_S1x1x27x48x2304_S1x1x1x48x2304_0_0_14_0_0 : ∀ a, (![0, 0, 14, 0, 0] : Fin 5 → Nat) a + S1x1x1x48x2304.size a ≤ S1x1x27x48x2304.size a
  inb_S1x1x27x48x2304_S1x1x1x48x2304_0_0_23_0_0 : ∀ a, (![0, 0, 23, 0, 0] : Fin 5 → Nat) a + S1x1x1x48x2304.size a ≤ S1x1x27x48x2304.size a
  inb_S1x1x27x48x2304_S1x1x1x48x2304_0_0_6_0_0 : ∀ a, (![0, 0, 6, 0, 0] : Fin 5 → Nat) a + S1x1x1x48x2304.size a ≤ S1x1x27x48x2304.size a
  inb_S1x1x27x48x2304_S1x1x1x48x2304_0_0_15_0_0 : ∀ a, (![0, 0, 15, 0, 0] : Fin 5 → Nat) a + S1x1x1x48x2304.size a ≤ S1x1x27x48x2304.size a
  inb_S1x1x27x48x2304_S1x1x1x48x2304_0_0_24_0_0 : ∀ a, (![0, 0, 24, 0, 0] : Fin 5 → Nat) a + S1x1x1x48x2304.size a ≤ S1x1x27x48x2304.size a
  inb_S1x1x27x48x2304_S1x1x1x48x2304_0_0_7_0_0 : ∀ a, (![0, 0, 7, 0, 0] : Fin 5 → Nat) a + S1x1x1x48x2304.size a ≤ S1x1x27x48x2304.size a
  inb_S1x1x27x48x2304_S1x1x1x48x2304_0_0_16_0_0 : ∀ a, (![0, 0, 16, 0, 0] : Fin 5 → Nat) a + S1x1x1x48x2304.size a ≤ S1x1x27x48x2304.size a
  inb_S1x1x27x48x2304_S1x1x1x48x2304_0_0_25_0_0 : ∀ a, (![0, 0, 25, 0, 0] : Fin 5 → Nat) a + S1x1x1x48x2304.size a ≤ S1x1x27x48x2304.size a
  inb_S1x1x27x48x2304_S1x1x1x48x2304_0_0_8_0_0 : ∀ a, (![0, 0, 8, 0, 0] : Fin 5 → Nat) a + S1x1x1x48x2304.size a ≤ S1x1x27x48x2304.size a
  inb_S1x1x27x48x2304_S1x1x1x48x2304_0_0_17_0_0 : ∀ a, (![0, 0, 17, 0, 0] : Fin 5 → Nat) a + S1x1x1x48x2304.size a ≤ S1x1x27x48x2304.size a
  inb_S1x1x27x48x2304_S1x1x1x48x2304_0_0_26_0_0 : ∀ a, (![0, 0, 26, 0, 0] : Fin 5 → Nat) a + S1x1x1x48x2304.size a ≤ S1x1x27x48x2304.size a
  shapeCasts_S2x16x27x48x2304_S2x432x110592 : S2x16x27x48x2304.ShapeCasts S2x432x110592
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x48x2304.size a ≤ S2x16x48x2304.size a
  hwx0_0 : ∀ i : grid0.Coords, EltTy.bits .f32 = 32 ∨ (Rect.block (s := S2x16x48x2304) S1x1x48x2304.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x27x48x2304.size a ≤ S2x16x27x48x2304.size a
  hwx0_1 : ∀ i : grid0.Coords, EltTy.bits .f32 = 32 ∨ (Rect.block (s := S2x16x27x48x2304) S1x1x27x48x2304.size (cc0_transform_1 i) (hinb0_1 i)).WholeWords (EltTy.packing .f32)

variable [Facts₀]

abbrev win0_0 : Pipeline.Window sig grid0 :=
  Pipeline.Window.ofSpec (Memref.whole main_v0) S1x1x48x2304.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x27x48x2304.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2x16x48x48x48 : Shape := ⟨5, ![2, 16, 48, 48, 48]⟩
abbrev S_ : Shape := ⟨0, ![]⟩
abbrev S2x16x50x50x50 : Shape := ⟨5, ![2, 16, 50, 50, 50]⟩
abbrev S2x16x1x48x48x48 : Shape := ⟨6, ![2, 16, 1, 48, 48, 48]⟩
abbrev S2x16x16x48x48x48 : Shape := ⟨6, ![2, 16, 16, 48, 48, 48]⟩
abbrev S2x16x11x48x48x48 : Shape := ⟨6, ![2, 16, 11, 48, 48, 48]⟩
abbrev S2x16x27x48x48x48 : Shape := ⟨6, ![2, 16, 27, 48, 48, 48]⟩
abbrev S2x432x110592 : Shape := ⟨3, ![2, 432, 110592]⟩

abbrev nBuf : Space → Nat
  | .hbm => 62
  | .vmem => 0
  | .smem => 0
  | _ => 0

abbrev bufTy : (tb : Table) → Fin (tcTables nBuf tb) → BufTy
  | .hbm, ⟨0, _⟩ => ⟨S2x16x48x48x48, .f32⟩
  | .hbm, ⟨1, _⟩ => ⟨S_, .i32⟩
  | .hbm, ⟨2, _⟩ => ⟨S_, .f32⟩
  | .hbm, ⟨3, _⟩ => ⟨S2x16x50x50x50, .f32⟩
  | .hbm, ⟨4, _⟩ => ⟨S2x16x48x48x48, .f32⟩
  | .hbm, ⟨5, _⟩ => ⟨S2x16x48x48x48, .f32⟩
  | .hbm, ⟨6, _⟩ => ⟨S2x16x48x48x48, .f32⟩
  | .hbm, ⟨7, _⟩ => ⟨S2x16x48x48x48, .f32⟩
  | .hbm, ⟨8, _⟩ => ⟨S2x16x48x48x48, .f32⟩
  | .hbm, ⟨9, _⟩ => ⟨S2x16x48x48x48, .f32⟩
  | .hbm, ⟨10, _⟩ => ⟨S2x16x48x48x48, .f32⟩
  | .hbm, ⟨11, _⟩ => ⟨S2x16x48x48x48, .f32⟩
  | .hbm, ⟨12, _⟩ => ⟨S2x16x48x48x48, .f32⟩
  | .hbm, ⟨13, _⟩ => ⟨S2x16x48x48x48, .f32⟩
  | .hbm, ⟨14, _⟩ => ⟨S2x16x48x48x48, .f32⟩
  | .hbm, ⟨15, _⟩ => ⟨S2x16x48x48x48, .f32⟩
  | .hbm, ⟨16, _⟩ => ⟨S2x16x48x48x48, .f32⟩
  | .hbm, ⟨17, _⟩ => ⟨S2x16x48x48x48, .f32⟩
  | .hbm, ⟨18, _⟩ => ⟨S2x16x48x48x48, .f32⟩
  | .hbm, ⟨19, _⟩ => ⟨S2x16x48x48x48, .f32⟩
  | .hbm, ⟨20, _⟩ => ⟨S2x16x48x48x48, .f32⟩
  | .hbm, ⟨21, _⟩ => ⟨S2x16x48x48x48, .f32⟩
  | .hbm, ⟨22, _⟩ => ⟨S2x16x48x48x48, .f32⟩
  | .hbm, ⟨23, _⟩ => ⟨S2x16x48x48x48, .f32⟩
  | .hbm, ⟨24, _⟩ => ⟨S2x16x48x48x48, .f32⟩
  | .hbm, ⟨25, _⟩ => ⟨S2x16x48x48x48, .f32⟩
  | .hbm, ⟨26, _⟩ => ⟨S2x16x48x48x48, .f32⟩
  | .hbm, ⟨27, _⟩ => ⟨S2x16x48x48x48, .f32⟩
  | .hbm, ⟨28, _⟩ => ⟨S2x16x48x48x48, .f32⟩
  | .hbm, ⟨29, _⟩ => ⟨S2x16x48x48x48, .f32⟩
  | .hbm, ⟨30, _⟩ => ⟨S2x16x48x48x48, .f32⟩
  | .hbm, ⟨31, _⟩ => ⟨S2x16x1x48x48x48, .f32⟩
  | .hbm, ⟨32, _⟩ => ⟨S2x16x1x48x48x48, .f32⟩
  | .hbm, ⟨33, _⟩ => ⟨S2x16x1x48x48x48, .f32⟩
  | .hbm, ⟨34, _⟩ => ⟨S2x16x1x48x48x48, .f32⟩
  | .hbm, ⟨35, _⟩ => ⟨S2x16x1x48x48x48, .f32⟩
  | .hbm, ⟨36, _⟩ => ⟨S2x16x1x48x48x48, .f32⟩
  | .hbm, ⟨37, _⟩ => ⟨S2x16x1x48x48x48, .f32⟩
  | .hbm, ⟨38, _⟩ => ⟨S2x16x1x48x48x48, .f32⟩
  | .hbm, ⟨39, _⟩ => ⟨S2x16x1x48x48x48, .f32⟩
  | .hbm, ⟨40, _⟩ => ⟨S2x16x1x48x48x48, .f32⟩
  | .hbm, ⟨41, _⟩ => ⟨S2x16x1x48x48x48, .f32⟩
  | .hbm, ⟨42, _⟩ => ⟨S2x16x1x48x48x48, .f32⟩
  | .hbm, ⟨43, _⟩ => ⟨S2x16x1x48x48x48, .f32⟩
  | .hbm, ⟨44, _⟩ => ⟨S2x16x1x48x48x48, .f32⟩
  | .hbm, ⟨45, _⟩ => ⟨S2x16x1x48x48x48, .f32⟩
  | .hbm, ⟨46, _⟩ => ⟨S2x16x1x48x48x48, .f32⟩
  | .hbm, ⟨47, _⟩ => ⟨S2x16x1x48x48x48, .f32⟩
  | .hbm, ⟨48, _⟩ => ⟨S2x16x1x48x48x48, .f32⟩
  | .hbm, ⟨49, _⟩ => ⟨S2x16x1x48x48x48, .f32⟩
  | .hbm, ⟨50, _⟩ => ⟨S2x16x1x48x48x48, .f32⟩
  | .hbm, ⟨51, _⟩ => ⟨S2x16x1x48x48x48, .f32⟩
  | .hbm, ⟨52, _⟩ => ⟨S2x16x1x48x48x48, .f32⟩
  | .hbm, ⟨53, _⟩ => ⟨S2x16x1x48x48x48, .f32⟩
  | .hbm, ⟨54, _⟩ => ⟨S2x16x1x48x48x48, .f32⟩
  | .hbm, ⟨55, _⟩ => ⟨S2x16x1x48x48x48, .f32⟩
  | .hbm, ⟨56, _⟩ => ⟨S2x16x1x48x48x48, .f32⟩
  | .hbm, ⟨57, _⟩ => ⟨S2x16x1x48x48x48, .f32⟩
  | .hbm, ⟨58, _⟩ => ⟨S2x16x16x48x48x48, .f32⟩
  | .hbm, ⟨59, _⟩ => ⟨S2x16x11x48x48x48, .f32⟩
  | .hbm, ⟨60, _⟩ => ⟨S2x16x27x48x48x48, .f32⟩
  | .hbm, ⟨61, _⟩ => ⟨S2x432x110592, .f32⟩
  | _, _ => ⟨S2x16x48x48x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_v54 : Ref sig .tc := ⟨.hbm, 57, rfl⟩
abbrev main_v55 : Ref sig .tc := ⟨.hbm, 58, rfl⟩
abbrev main_v56 : Ref sig .tc := ⟨.hbm, 59, rfl⟩
abbrev main_v57 : Ref sig .tc := ⟨.hbm, 60, rfl⟩
abbrev main_v58 : Ref sig .tc := ⟨.hbm, 61, rfl⟩

abbrev nD : Nat := 1
abbrev τ : Topo := Topo.v7x

variable {F : FTy → Type} [FloatOps F]

class Facts₀ : Prop where
  pads_S2x16x48x48x48_S2x16x50x50x50_000_000_110_110_110 : S2x16x48x48x48.Pads (![0, 0, 1, 1, 1] : Fin 5 → Nat) ![0, 0, 1, 1, 1] ![0, 0, 0, 0, 0] S2x16x50x50x50
  h_S_ : 0 < S_.numel
  slices_S2x16x50x50x50_S2x16x48x48x48_0_0_0_0_0 : S2x16x50x50x50.Slices ![0, 0, 0, 0, 0] S2x16x48x48x48
  slices_S2x16x50x50x50_S2x16x48x48x48_0_0_0_0_1 : S2x16x50x50x50.Slices ![0, 0, 0, 0, 1] S2x16x48x48x48
  slices_S2x16x50x50x50_S2x16x48x48x48_0_0_0_0_2 : S2x16x50x50x50.Slices ![0, 0, 0, 0, 2] S2x16x48x48x48
  slices_S2x16x50x50x50_S2x16x48x48x48_0_0_0_1_0 : S2x16x50x50x50.Slices ![0, 0, 0, 1, 0] S2x16x48x48x48
  slices_S2x16x50x50x50_S2x16x48x48x48_0_0_0_1_1 : S2x16x50x50x50.Slices ![0, 0, 0, 1, 1] S2x16x48x48x48
  slices_S2x16x50x50x50_S2x16x48x48x48_0_0_0_1_2 : S2x16x50x50x50.Slices ![0, 0, 0, 1, 2] S2x16x48x48x48
  slices_S2x16x50x50x50_S2x16x48x48x48_0_0_0_2_0 : S2x16x50x50x50.Slices ![0, 0, 0, 2, 0] S2x16x48x48x48
  slices_S2x16x50x50x50_S2x16x48x48x48_0_0_0_2_1 : S2x16x50x50x50.Slices ![0, 0, 0, 2, 1] S2x16x48x48x48
  slices_S2x16x50x50x50_S2x16x48x48x48_0_0_0_2_2 : S2x16x50x50x50.Slices ![0, 0, 0, 2, 2] S2x16x48x48x48
  slices_S2x16x50x50x50_S2x16x48x48x48_0_0_1_0_0 : S2x16x50x50x50.Slices ![0, 0, 1, 0, 0] S2x16x48x48x48
  slices_S2x16x50x50x50_S2x16x48x48x48_0_0_1_0_1 : S2x16x50x50x50.Slices ![0, 0, 1, 0, 1] S2x16x48x48x48
  slices_S2x16x50x50x50_S2x16x48x48x48_0_0_1_0_2 : S2x16x50x50x50.Slices ![0, 0, 1, 0, 2] S2x16x48x48x48
  slices_S2x16x50x50x50_S2x16x48x48x48_0_0_1_1_0 : S2x16x50x50x50.Slices ![0, 0, 1, 1, 0] S2x16x48x48x48
  slices_S2x16x50x50x50_S2x16x48x48x48_0_0_1_1_1 : S2x16x50x50x50.Slices ![0, 0, 1, 1, 1] S2x16x48x48x48
  slices_S2x16x50x50x50_S2x16x48x48x48_0_0_1_1_2 : S2x16x50x50x50.Slices ![0, 0, 1, 1, 2] S2x16x48x48x48
  slices_S2x16x50x50x50_S2x16x48x48x48_0_0_1_2_0 : S2x16x50x50x50.Slices ![0, 0, 1, 2, 0] S2x16x48x48x48
  slices_S2x16x50x50x50_S2x16x48x48x48_0_0_1_2_1 : S2x16x50x50x50.Slices ![0, 0, 1, 2, 1] S2x16x48x48x48
  slices_S2x16x50x50x50_S2x16x48x48x48_0_0_1_2_2 : S2x16x50x50x50.Slices ![0, 0, 1, 2, 2] S2x16x48x48x48
  slices_S2x16x50x50x50_S2x16x48x48x48_0_0_2_0_0 : S2x16x50x50x50.Slices ![0, 0, 2, 0, 0] S2x16x48x48x48
  slices_S2x16x50x50x50_S2x16x48x48x48_0_0_2_0_1 : S2x16x50x50x50.Slices ![0, 0, 2, 0, 1] S2x16x48x48x48
  slices_S2x16x50x50x50_S2x16x48x48x48_0_0_2_0_2 : S2x16x50x50x50.Slices ![0, 0, 2, 0, 2] S2x16x48x48x48
  slices_S2x16x50x50x50_S2x16x48x48x48_0_0_2_1_0 : S2x16x50x50x50.Slices ![0, 0, 2, 1, 0] S2x16x48x48x48
  slices_S2x16x50x50x50_S2x16x48x48x48_0_0_2_1_1 : S2x16x50x50x50.Slices ![0, 0, 2, 1, 1] S2x16x48x48x48
  slices_S2x16x50x50x50_S2x16x48x48x48_0_0_2_1_2 : S2x16x50x50x50.Slices ![0, 0, 2, 1, 2] S2x16x48x48x48
  slices_S2x16x50x50x50_S2x16x48x48x48_0_0_2_2_0 : S2x16x50x50x50.Slices ![0, 0, 2, 2, 0] S2x16x48x48x48
  slices_S2x16x50x50x50_S2x16x48x48x48_0_0_2_2_1 : S2x16x50x50x50.Slices ![0, 0, 2, 2, 1] S2x16x48x48x48
  slices_S2x16x50x50x50_S2x16x48x48x48_0_0_2_2_2 : S2x16x50x50x50.Slices ![0, 0, 2, 2, 2] S2x16x48x48x48
  bcast_S2x16x48x48x48_S2x16x1x48x48x48_0_1_3_4_5 : S2x16x48x48x48.BroadcastsInDim S2x16x1x48x48x48 (![0, 1, 3, 4, 5] : Fin 5 → Fin S2x16x1x48x48x48.rank)
  concatenates_S2x16x1x48x48x48_S2x16x1x48x48x48_S2x16x1x48x48x48_S2x16x1x48x48x48_S2x16x1x48x48x48_S2x16x1x48x48x48_S2x16x1x48x48x48_S2x16x1x48x48x48_S2x16x1x48x48x48_S2x16x1x48x48x48_S2x16x1x48x48x48_S2x16x1x48x48x48_S2x16x1x48x48x48_S2x16x1x48x48x48_S2x16x1x48x48x48_S2x16x1x48x48x48_S2x16x16x48x48x48_d2 : Shape.Concatenates [S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48] S2x16x16x48x48x48 2
  concatenates_S2x16x1x48x48x48_S2x16x1x48x48x48_S2x16x1x48x48x48_S2x16x1x48x48x48_S2x16x1x48x48x48_S2x16x1x48x48x48_S2x16x1x48x48x48_S2x16x1x48x48x48_S2x16x1x48x48x48_S2x16x1x48x48x48_S2x16x1x48x48x48_S2x16x11x48x48x48_d2 : Shape.Concatenates [S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48] S2x16x11x48x48x48 2
  concatenates_S2x16x16x48x48x48_S2x16x11x48x48x48_S2x16x27x48x48x48_d2 : Shape.Concatenates [S2x16x16x48x48x48, S2x16x11x48x48x48] S2x16x27x48x48x48 2
  shapeCasts_S2x16x27x48x48x48_S2x432x110592 : S2x16x27x48x48x48.ShapeCasts S2x432x110592

variable [Facts₀]

class Facts : Prop extends Facts₀ where

variable [Facts]
-- ==== Proof.UnfoldSpec.lean ====
/-
  The 3×3×3 unfold of a volume, as one function of the argument array.

  For x : [2, 16, 48, 48, 48] the result is [2, 16·27, 48·48·48]: channel c·27 + k, with k = 9·i + 3·j + l for
  offsets i, j, l ∈ {0, 1, 2}, holds at position (h·48 + w)·48 + d the entry of the volume zero-padded by one on each
  side of its three spatial axes, at padded coordinates (h + i, w + j, d + l): that is x at (h + i − 1, w + j − 1,
  d + l − 1) when all three lie in the volume, and 0 in the border.

  `padded` is the padded volume at natural-number coordinates, `patches` the 27 shifted copies as a rank-6 array
  [2, 16, 27, 48, 48, 48], `unfolded` its row-major flattening to the result's shape, and `tiles` the same entries laid
  out [2, 16, 27, 48, 2304] with the two last spatial axes merged (lane n = w·48 + d).
-/
import Idealize.ShloMosaic.PureOps.Ideal
import Idealize.ShloMosaic.Lib.ValueIdx
import Idealize.ShloMosaic.Lib.ValueIdxRank6
import Idealize.ShloMosaic.Lib.Pipeline.Value

noncomputable section

namespace Cert.UnfoldSpec

open Idealize.ShloMosaic Idealize.ShloMosaic.ValueIdx

abbrev SVol : Shape := ⟨5, ![2, 16, 48, 48, 48]⟩
abbrev SPatches : Shape := ⟨6, ![2, 16, 27, 48, 48, 48]⟩
abbrev STiles : Shape := ⟨5, ![2, 16, 27, 48, 2304]⟩
abbrev SFlat : Shape := ⟨3, ![2, 432, 110592]⟩

theorem casts_patches_flat : SPatches.ShapeCasts SFlat := by decide
theorem casts_patches_tiles : SPatches.ShapeCasts STiles := by decide
theorem casts_tiles_flat : STiles.ShapeCasts SFlat := by decide

/-- The volume zero-padded by one on each side of its three spatial axes, read at padded coordinates (p, q, r): the
    volume at (p − 1, q − 1, r − 1) when 1 ≤ p, q, r ≤ 48, and 0 in the border. -/
def padded (x : SVol.Idx → EReal) (b : Fin 2) (c : Fin 16) (p q r : Nat) : EReal :=
  if h : (1 ≤ p ∧ p ≤ 48) ∧ (1 ≤ q ∧ q ≤ 48) ∧ (1 ≤ r ∧ r ≤ 48) then
    x (ix5 b c (⟨p - 1, by omega⟩ : Fin 48) (⟨q - 1, by omega⟩ : Fin 48) (⟨r - 1, by omega⟩ : Fin 48))
  else 0

/-- The 27 shifted copies: copy k = 9·i + 3·j + l at (h, w, d) is the padded volume at (h + i, w + j, d + l). -/
def patches (x : SVol.Idx → EReal) : SPatches.Idx → EReal := fun i =>
  padded x (i 0) (i 1) ((i 3).val + (i 2).val / 9) ((i 4).val + (i 2).val / 3 % 3) ((i 5).val + (i 2).val % 3)

/-- The result: the patches flattened row-major to [2, 432, 110592]. -/
def unfolded (x : SVol.Idx → EReal) : SFlat.Idx → EReal := shapeCast SFlat (patches x) casts_patches_flat

/-- The same entries with the two last spatial axes merged: [2, 16, 27, 48, 2304]. -/
def tiles (x : SVol.Idx → EReal) : STiles.Idx → EReal := shapeCast STiles (patches x) casts_patches_tiles

/-- Flattening the merged layout is flattening the patches: a reshape of a reshape is the reshape. -/
theorem shapeCast_tiles (x : SVol.Idx → EReal) : shapeCast SFlat (tiles x) casts_tiles_flat = unfolded x := by
  funext j
  unfold tiles unfolded shapeCast
  exact congrArg (patches x) (Shape.reshapeEquiv_reshapeEquiv _ _ j)

/-- The merged layout read at (b, c, k, h, n): lane n is (w, d) = (n / 48, n % 48). -/
theorem tiles_apply (x : SVol.Idx → EReal) (b : Fin 2) (c : Fin 16) (k : Fin 27) (h : Fin 48) (n : Fin 2304) :
    tiles x (ix5 b c k h n)
      = padded x b c (h.val + k.val / 9) (n.val / 48 + k.val / 3 % 3) (n.val % 48 + k.val % 3) := by
  have hn := n.isLt
  refine (shapeCast_apply (patches x) casts_patches_tiles (ix5 b c k h n)
    (ix6 b c k h (⟨n.val / 48, by omega⟩ : Fin 48) (⟨n.val % 48, by omega⟩ : Fin 48)) ?_).trans rfl
  rw [Shape.rowMajor_val_six, Shape.rowMajor_val_five]
  show ((((b.val * 16 + c.val) * 27 + k.val) * 48 + h.val) * 48 + n.val / 48) * 48 + n.val % 48
    = (((b.val * 16 + c.val) * 27 + k.val) * 48 + h.val) * 2304 + n.val
  omega

end Cert.UnfoldSpec

end
-- ==== Proof.UnfoldRef.lean ====
/-
  The reference program's array of patches is the specification's.

  The program pads the volume with zeros by one on each side of its three spatial axes, cuts the 27 windows of the
  padded array at the offsets (i, j, l) ∈ {0, 1, 2}³, gives each window a unit axis, joins the 27 along that axis (the
  first 16, the last 11, then those two) and flattens the result. Read at an index, stage by stage:
  the padded array at natural-number coordinates is `padded` (`pad_at`); the window at offsets (i, j, l), read at
  (h, w, d), is the padded array at (h + i, w + j, d + l) (`window_at`); the unit axis changes no entry
  (`unit_axis_at`); copy k of a joined array is its k-th piece (`first_k`, `last_k`, `joined_low`,
  `joined_high`); and copy k = 9·i + 3·j + l of the whole is `patches` there, because k / 9 = i, k / 3 % 3 = j and
  k % 3 = l (`patch_k`). The flattening is the same reshape on both sides.
-/
import proofs.«121408_j2757369004156_2_alg».proof.Proof.Gen.ReferenceIdeal.Read
import proofs.«121408_j2757369004156_2_alg».proof.Proof.UnfoldSpec
import Idealize.ShloMosaic.Lib.KernelVsHost
import Idealize.ShloMosaic.Lib.ValueIdx
import Idealize.ShloMosaic.Lib.ValueIdxRank6
import Idealize.ShloMosaic.Lib.Pipeline.Value

noncomputable section

namespace Cert.UnfoldRef

open Idealize.ShloMosaic Idealize.ShloMosaic.ValueIdx Cert.ReferenceIdeal Cert.ReferenceIdeal.Gen Cert.ReferenceIdeal.Read
  Cert.UnfoldSpec

/-- The argument: the volume's entries at the ideal values. -/
abbrev Vol : Type := (⟨S2x16x48x48x48, .f32⟩ : BufTy).Contents (Elt Ideal)

/-! ## The padded array -/

/-- The padding value, the integer zero converted, is zero. -/
theorem pad_value (i : S_.Idx) : val_main_call0_v0 (F := Ideal) i = (0 : EReal) :=
  (val_main_call0_v0_apply (F := Ideal) i).trans (sitofp_zero (φ := .f32))

/-- The padded array at (b, c, p, q, r) is the volume at (p − 1, q − 1, r − 1) inside, and zero in the border. -/
theorem pad_at (x : Vol) (b : Fin 2) (c : Fin 16) (p q r : Fin 50) :
    val_main_v0 (F := Ideal) x (ix5 b c p q r) = padded x b c p.val q.val r.val := by
  have hp := p.isLt
  have hq := q.isLt
  have hr := r.isLt
  unfold val_main_v0 padded
  by_cases h : (1 ≤ p.val ∧ p.val ≤ 48) ∧ (1 ≤ q.val ∧ q.val ≤ 48) ∧ (1 ≤ r.val ∧ r.val ≤ 48)
  · rw [dif_pos h]
    exact pad_apply_of_inside _ _ _ x _ _ _ (ix5 b c p q r)
      (ix5 b c (⟨p.val - 1, by omega⟩ : Fin 48) (⟨q.val - 1, by omega⟩ : Fin 48) (⟨r.val - 1, by omega⟩ : Fin 48))
      (fun a => match a with
        | ⟨0, _⟩ => by show b.val = 0 + b.val * (0 + 1); omega
        | ⟨1, _⟩ => by show c.val = 0 + c.val * (0 + 1); omega
        | ⟨2, _⟩ => by show p.val = 1 + (p.val - 1) * (0 + 1); omega
        | ⟨3, _⟩ => by show q.val = 1 + (q.val - 1) * (0 + 1); omega
        | ⟨4, _⟩ => by show r.val = 1 + (r.val - 1) * (0 + 1); omega)
  · rw [dif_neg h]
    by_cases h2 : 1 ≤ p.val ∧ p.val ≤ 48
    · by_cases h3 : 1 ≤ q.val ∧ q.val ≤ 48
      · -- the last spatial coordinate is in the border
        refine (pad_apply_of_not_inside _ _ _ x _ _ _ (ix5 b c p q r) (⟨4, by decide⟩ : Fin 5) ?_).trans (pad_value _)
        intro hin
        have e1 : 1 ≤ r.val := hin.1
        have e2 : (r.val - 1) / (0 + 1) < 48 := hin.2.2
        exact h ⟨h2, h3, by omega⟩
      · -- the middle spatial coordinate is in the border
        refine (pad_apply_of_not_inside _ _ _ x _ _ _ (ix5 b c p q r) (⟨3, by decide⟩ : Fin 5) ?_).trans (pad_value _)
        intro hin
        have e1 : 1 ≤ q.val := hin.1
        have e2 : (q.val - 1) / (0 + 1) < 48 := hin.2.2
        exact h3 (by omega)
    · -- the first spatial coordinate is in the border
      refine (pad_apply_of_not_inside _ _ _ x _ _ _ (ix5 b c p q r) (⟨2, by decide⟩ : Fin 5) ?_).trans (pad_value _)
      intro hin
      have e1 : 1 ≤ p.val := hin.1
      have e2 : (p.val - 1) / (0 + 1) < 48 := hin.2.2
      exact h2 (by omega)

/-! ## A window of the padded array, and the unit axis -/

/-- The window of the padded array at offsets (i, j, l) ≤ 2, read at (h, w, d), is the padded array at
    (h + i, w + j, d + l). -/
theorem window_at (x : Vol) (i j l : Nat) (hi : i ≤ 2) (hj : j ≤ 2) (hl : l ≤ 2)
    (sl : S2x16x50x50x50.Slices ![0, 0, i, j, l] S2x16x48x48x48) (b : Fin 2) (c : Fin 16) (h w d : Fin 48) :
    extractStridedSlice S2x16x48x48x48 ![0, 0, i, j, l] (val_main_v0 (F := Ideal) x) sl (ix5 b c h w d)
      = padded x b c (h.val + i) (w.val + j) (d.val + l) := by
  have hh := h.isLt
  have hw := w.isLt
  have hd := d.isLt
  refine (extractStridedSlice_apply _ _ sl (ix5 b c h w d)
    (ix5 b c (⟨h.val + i, by omega⟩ : Fin 50) (⟨w.val + j, by omega⟩ : Fin 50) (⟨d.val + l, by omega⟩ : Fin 50))
    (fun a => match a with
      | ⟨0, _⟩ => by show b.val = 0 + b.val; omega
      | ⟨1, _⟩ => by show c.val = 0 + c.val; omega
      | ⟨2, _⟩ => by show h.val + i = i + h.val; omega
      | ⟨3, _⟩ => by show w.val + j = j + w.val; omega
      | ⟨4, _⟩ => by show d.val + l = l + d.val; omega)).trans ?_
  exact pad_at x b c _ _ _

/-- Giving an array a unit axis changes no entry. -/
theorem unit_axis_at (y : Vol) (b : Fin 2) (c : Fin 16) (z : Fin 1) (h w d : Fin 48) :
    broadcastInDim S2x16x1x48x48x48 ![0, 1, 3, 4, 5] bcast_S2x16x48x48x48_S2x16x1x48x48x48_0_1_3_4_5 y (ix6 b c z h w d)
      = y (ix5 b c h w d) :=
  broadcastInDim_apply _ bcast_S2x16x48x48x48_S2x16x1x48x48x48_0_1_3_4_5 y (ix6 b c z h w d) (ix5 b c h w d)
    (fun a => match a with
      | ⟨0, _⟩ => by show b.val = if (2 : Nat) = 1 then 0 else b.val; rw [if_neg (by decide)]
      | ⟨1, _⟩ => by show c.val = if (16 : Nat) = 1 then 0 else c.val; rw [if_neg (by decide)]
      | ⟨2, _⟩ => by show h.val = if (48 : Nat) = 1 then 0 else h.val; rw [if_neg (by decide)]
      | ⟨3, _⟩ => by show w.val = if (48 : Nat) = 1 then 0 else w.val; rw [if_neg (by decide)]
      | ⟨4, _⟩ => by show d.val = if (48 : Nat) = 1 then 0 else d.val; rw [if_neg (by decide)])

/-! ## The 27 copies, each with its unit axis: copy k = 9·i + 3·j + l is the window at offsets (i, j, l) -/

theorem copy_0 (x : Vol) (b : Fin 2) (c : Fin 16) (z : Fin 1) (h w d : Fin 48) :
    val_main_v28 (F := Ideal) x (ix6 b c z h w d) = padded x b c (h.val + 0) (w.val + 0) (d.val + 0) := by
  unfold val_main_v28 val_main_v1
  exact (unit_axis_at _ b c z h w d).trans (window_at x 0 0 0 (by decide) (by decide) (by decide) _ b c h w d)

theorem copy_1 (x : Vol) (b : Fin 2) (c : Fin 16) (z : Fin 1) (h w d : Fin 48) :
    val_main_v29 (F := Ideal) x (ix6 b c z h w d) = padded x b c (h.val + 0) (w.val + 0) (d.val + 1) := by
  unfold val_main_v29 val_main_v2
  exact (unit_axis_at _ b c z h w d).trans (window_at x 0 0 1 (by decide) (by decide) (by decide) _ b c h w d)

theorem copy_2 (x : Vol) (b : Fin 2) (c : Fin 16) (z : Fin 1) (h w d : Fin 48) :
    val_main_v30 (F := Ideal) x (ix6 b c z h w d) = padded x b c (h.val + 0) (w.val + 0) (d.val + 2) := by
  unfold val_main_v30 val_main_v3
  exact (unit_axis_at _ b c z h w d).trans (window_at x 0 0 2 (by decide) (by decide) (by decide) _ b c h w d)

theorem copy_3 (x : Vol) (b : Fin 2) (c : Fin 16) (z : Fin 1) (h w d : Fin 48) :
    val_main_v31 (F := Ideal) x (ix6 b c z h w d) = padded x b c (h.val + 0) (w.val + 1) (d.val + 0) := by
  unfold val_main_v31 val_main_v4
  exact (unit_axis_at _ b c z h w d).trans (window_at x 0 1 0 (by decide) (by decide) (by decide) _ b c h w d)

theorem copy_4 (x : Vol) (b : Fin 2) (c : Fin 16) (z : Fin 1) (h w d : Fin 48) :
    val_main_v32 (F := Ideal) x (ix6 b c z h w d) = padded x b c (h.val + 0) (w.val + 1) (d.val + 1) := by
  unfold val_main_v32 val_main_v5
  exact (unit_axis_at _ b c z h w d).trans (window_at x 0 1 1 (by decide) (by decide) (by decide) _ b c h w d)

theorem copy_5 (x : Vol) (b : Fin 2) (c : Fin 16) (z : Fin 1) (h w d : Fin 48) :
    val_main_v33 (F := Ideal) x (ix6 b c z h w d) = padded x b c (h.val + 0) (w.val + 1) (d.val + 2) := by
  unfold val_main_v33 val_main_v6
  exact (unit_axis_at _ b c z h w d).trans (window_at x 0 1 2 (by decide) (by decide) (by decide) _ b c h w d)

theorem copy_6 (x : Vol) (b : Fin 2) (c : Fin 16) (z : Fin 1) (h w d : Fin 48) :
    val_main_v34 (F := Ideal) x (ix6 b c z h w d) = padded x b c (h.val + 0) (w.val + 2) (d.val + 0) := by
  unfold val_main_v34 val_main_v7
  exact (unit_axis_at _ b c z h w d).trans (window_at x 0 2 0 (by decide) (by decide) (by decide) _ b c h w d)

theorem copy_7 (x : Vol) (b : Fin 2) (c : Fin 16) (z : Fin 1) (h w d : Fin 48) :
    val_main_v35 (F := Ideal) x (ix6 b c z h w d) = padded x b c (h.val + 0) (w.val + 2) (d.val + 1) := by
  unfold val_main_v35 val_main_v8
  exact (unit_axis_at _ b c z h w d).trans (window_at x 0 2 1 (by decide) (by decide) (by decide) _ b c h w d)

theorem copy_8 (x : Vol) (b : Fin 2) (c : Fin 16) (z : Fin 1) (h w d : Fin 48) :
    val_main_v36 (F := Ideal) x (ix6 b c z h w d) = padded x b c (h.val + 0) (w.val + 2) (d.val + 2) := by
  unfold val_main_v36 val_main_v9
  exact (unit_axis_at _ b c z h w d).trans (window_at x 0 2 2 (by decide) (by decide) (by decide) _ b c h w d)

theorem copy_9 (x : Vol) (b : Fin 2) (c : Fin 16) (z : Fin 1) (h w d : Fin 48) :
    val_main_v37 (F := Ideal) x (ix6 b c z h w d) = padded x b c (h.val + 1) (w.val + 0) (d.val + 0) := by
  unfold val_main_v37 val_main_v10
  exact (unit_axis_at _ b c z h w d).trans (window_at x 1 0 0 (by decide) (by decide) (by decide) _ b c h w d)

theorem copy_10 (x : Vol) (b : Fin 2) (c : Fin 16) (z : Fin 1) (h w d : Fin 48) :
    val_main_v38 (F := Ideal) x (ix6 b c z h w d) = padded x b c (h.val + 1) (w.val + 0) (d.val + 1) := by
  unfold val_main_v38 val_main_v11
  exact (unit_axis_at _ b c z h w d).trans (window_at x 1 0 1 (by decide) (by decide) (by decide) _ b c h w d)

theorem copy_11 (x : Vol) (b : Fin 2) (c : Fin 16) (z : Fin 1) (h w d : Fin 48) :
    val_main_v39 (F := Ideal) x (ix6 b c z h w d) = padded x b c (h.val + 1) (w.val + 0) (d.val + 2) := by
  unfold val_main_v39 val_main_v12
  exact (unit_axis_at _ b c z h w d).trans (window_at x 1 0 2 (by decide) (by decide) (by decide) _ b c h w d)

theorem copy_12 (x : Vol) (b : Fin 2) (c : Fin 16) (z : Fin 1) (h w d : Fin 48) :
    val_main_v40 (F := Ideal) x (ix6 b c z h w d) = padded x b c (h.val + 1) (w.val + 1) (d.val + 0) := by
  unfold val_main_v40 val_main_v13
  exact (unit_axis_at _ b c z h w d).trans (window_at x 1 1 0 (by decide) (by decide) (by decide) _ b c h w d)

theorem copy_13 (x : Vol) (b : Fin 2) (c : Fin 16) (z : Fin 1) (h w d : Fin 48) :
    val_main_v41 (F := Ideal) x (ix6 b c z h w d) = padded x b c (h.val + 1) (w.val + 1) (d.val + 1) := by
  unfold val_main_v41 val_main_v14
  exact (unit_axis_at _ b c z h w d).trans (window_at x 1 1 1 (by decide) (by decide) (by decide) _ b c h w d)

theorem copy_14 (x : Vol) (b : Fin 2) (c : Fin 16) (z : Fin 1) (h w d : Fin 48) :
    val_main_v42 (F := Ideal) x (ix6 b c z h w d) = padded x b c (h.val + 1) (w.val + 1) (d.val + 2) := by
  unfold val_main_v42 val_main_v15
  exact (unit_axis_at _ b c z h w d).trans (window_at x 1 1 2 (by decide) (by decide) (by decide) _ b c h w d)

theorem copy_15 (x : Vol) (b : Fin 2) (c : Fin 16) (z : Fin 1) (h w d : Fin 48) :
    val_main_v43 (F := Ideal) x (ix6 b c z h w d) = padded x b c (h.val + 1) (w.val + 2) (d.val + 0) := by
  unfold val_main_v43 val_main_v16
  exact (unit_axis_at _ b c z h w d).trans (window_at x 1 2 0 (by decide) (by decide) (by decide) _ b c h w d)

theorem copy_16 (x : Vol) (b : Fin 2) (c : Fin 16) (z : Fin 1) (h w d : Fin 48) :
    val_main_v44 (F := Ideal) x (ix6 b c z h w d) = padded x b c (h.val + 1) (w.val + 2) (d.val + 1) := by
  unfold val_main_v44 val_main_v17
  exact (unit_axis_at _ b c z h w d).trans (window_at x 1 2 1 (by decide) (by decide) (by decide) _ b c h w d)

theorem copy_17 (x : Vol) (b : Fin 2) (c : Fin 16) (z : Fin 1) (h w d : Fin 48) :
    val_main_v45 (F := Ideal) x (ix6 b c z h w d) = padded x b c (h.val + 1) (w.val + 2) (d.val + 2) := by
  unfold val_main_v45 val_main_v18
  exact (unit_axis_at _ b c z h w d).trans (window_at x 1 2 2 (by decide) (by decide) (by decide) _ b c h w d)

theorem copy_18 (x : Vol) (b : Fin 2) (c : Fin 16) (z : Fin 1) (h w d : Fin 48) :
    val_main_v46 (F := Ideal) x (ix6 b c z h w d) = padded x b c (h.val + 2) (w.val + 0) (d.val + 0) := by
  unfold val_main_v46 val_main_v19
  exact (unit_axis_at _ b c z h w d).trans (window_at x 2 0 0 (by decide) (by decide) (by decide) _ b c h w d)

theorem copy_19 (x : Vol) (b : Fin 2) (c : Fin 16) (z : Fin 1) (h w d : Fin 48) :
    val_main_v47 (F := Ideal) x (ix6 b c z h w d) = padded x b c (h.val + 2) (w.val + 0) (d.val + 1) := by
  unfold val_main_v47 val_main_v20
  exact (unit_axis_at _ b c z h w d).trans (window_at x 2 0 1 (by decide) (by decide) (by decide) _ b c h w d)

theorem copy_20 (x : Vol) (b : Fin 2) (c : Fin 16) (z : Fin 1) (h w d : Fin 48) :
    val_main_v48 (F := Ideal) x (ix6 b c z h w d) = padded x b c (h.val + 2) (w.val + 0) (d.val + 2) := by
  unfold val_main_v48 val_main_v21
  exact (unit_axis_at _ b c z h w d).trans (window_at x 2 0 2 (by decide) (by decide) (by decide) _ b c h w d)

theorem copy_21 (x : Vol) (b : Fin 2) (c : Fin 16) (z : Fin 1) (h w d : Fin 48) :
    val_main_v49 (F := Ideal) x (ix6 b c z h w d) = padded x b c (h.val + 2) (w.val + 1) (d.val + 0) := by
  unfold val_main_v49 val_main_v22
  exact (unit_axis_at _ b c z h w d).trans (window_at x 2 1 0 (by decide) (by decide) (by decide) _ b c h w d)

theorem copy_22 (x : Vol) (b : Fin 2) (c : Fin 16) (z : Fin 1) (h w d : Fin 48) :
    val_main_v50 (F := Ideal) x (ix6 b c z h w d) = padded x b c (h.val + 2) (w.val + 1) (d.val + 1) := by
  unfold val_main_v50 val_main_v23
  exact (unit_axis_at _ b c z h w d).trans (window_at x 2 1 1 (by decide) (by decide) (by decide) _ b c h w d)

theorem copy_23 (x : Vol) (b : Fin 2) (c : Fin 16) (z : Fin 1) (h w d : Fin 48) :
    val_main_v51 (F := Ideal) x (ix6 b c z h w d) = padded x b c (h.val + 2) (w.val + 1) (d.val + 2) := by
  unfold val_main_v51 val_main_v24
  exact (unit_axis_at _ b c z h w d).trans (window_at x 2 1 2 (by decide) (by decide) (by decide) _ b c h w d)

theorem copy_24 (x : Vol) (b : Fin 2) (c : Fin 16) (z : Fin 1) (h w d : Fin 48) :
    val_main_v52 (F := Ideal) x (ix6 b c z h w d) = padded x b c (h.val + 2) (w.val + 2) (d.val + 0) := by
  unfold val_main_v52 val_main_v25
  exact (unit_axis_at _ b c z h w d).trans (window_at x 2 2 0 (by decide) (by decide) (by decide) _ b c h w d)

theorem copy_25 (x : Vol) (b : Fin 2) (c : Fin 16) (z : Fin 1) (h w d : Fin 48) :
    val_main_v53 (F := Ideal) x (ix6 b c z h w d) = padded x b c (h.val + 2) (w.val + 2) (d.val + 1) := by
  unfold val_main_v53 val_main_v26
  exact (unit_axis_at _ b c z h w d).trans (window_at x 2 2 1 (by decide) (by decide) (by decide) _ b c h w d)

theorem copy_26 (x : Vol) (b : Fin 2) (c : Fin 16) (z : Fin 1) (h w d : Fin 48) :
    val_main_v54 (F := Ideal) x (ix6 b c z h w d) = padded x b c (h.val + 2) (w.val + 2) (d.val + 2) := by
  unfold val_main_v54 val_main_v27
  exact (unit_axis_at _ b c z h w d).trans (window_at x 2 2 2 (by decide) (by decide) (by decide) _ b c h w d)

/-! ## The two joins: copy k of a join is its k-th piece, the pieces before it having extent 1 each -/

theorem first_0 (x : Vol) (b : Fin 2) (c : Fin 16) (h w d : Fin 48) :
    val_main_v55 (F := Ideal) x (ix6 b c (⟨0, by decide⟩ : Fin 16) h w d)
      = padded x b c (h.val + 0) (w.val + 0) (d.val + 0) := by
  unfold val_main_v55
  refine (concatenate_apply_piece _ _ _ (ix6 b c (⟨0, by decide⟩ : Fin 16) h w d) 0 ?_ S2x16x1x48x48x48
    (val_main_v28 (F := Ideal) x) ?_ ?_ 0 ?_ (ix6 b c (0 : Fin 1) h w d) ?_ ?_).trans (copy_0 x b c 0 h w d)
  · show 0 < 16; decide
  · rfl
  · rfl
  · -- the pieces before this one have extent 1 each
    rw [List.map_take]
    show ((List.take 0 [S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48]).map _).sum = 0
    decide +kernel
  · exact fun a => match a with
      | ⟨0, _⟩ => fun _ => rfl
      | ⟨1, _⟩ => fun _ => rfl
      | ⟨2, _⟩ => fun hne => (hne (Fin.ext rfl)).elim
      | ⟨3, _⟩ => fun _ => rfl
      | ⟨4, _⟩ => fun _ => rfl
      | ⟨5, _⟩ => fun _ => rfl
  · rfl

theorem first_1 (x : Vol) (b : Fin 2) (c : Fin 16) (h w d : Fin 48) :
    val_main_v55 (F := Ideal) x (ix6 b c (⟨1, by decide⟩ : Fin 16) h w d)
      = padded x b c (h.val + 0) (w.val + 0) (d.val + 1) := by
  unfold val_main_v55
  refine (concatenate_apply_piece _ _ _ (ix6 b c (⟨1, by decide⟩ : Fin 16) h w d) 1 ?_ S2x16x1x48x48x48
    (val_main_v29 (F := Ideal) x) ?_ ?_ 1 ?_ (ix6 b c (0 : Fin 1) h w d) ?_ ?_).trans (copy_1 x b c 0 h w d)
  · show 1 < 16; decide
  · rfl
  · rfl
  · -- the pieces before this one have extent 1 each
    rw [List.map_take]
    show ((List.take 1 [S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48]).map _).sum = 1
    decide +kernel
  · exact fun a => match a with
      | ⟨0, _⟩ => fun _ => rfl
      | ⟨1, _⟩ => fun _ => rfl
      | ⟨2, _⟩ => fun hne => (hne (Fin.ext rfl)).elim
      | ⟨3, _⟩ => fun _ => rfl
      | ⟨4, _⟩ => fun _ => rfl
      | ⟨5, _⟩ => fun _ => rfl
  · rfl

theorem first_2 (x : Vol) (b : Fin 2) (c : Fin 16) (h w d : Fin 48) :
    val_main_v55 (F := Ideal) x (ix6 b c (⟨2, by decide⟩ : Fin 16) h w d)
      = padded x b c (h.val + 0) (w.val + 0) (d.val + 2) := by
  unfold val_main_v55
  refine (concatenate_apply_piece _ _ _ (ix6 b c (⟨2, by decide⟩ : Fin 16) h w d) 2 ?_ S2x16x1x48x48x48
    (val_main_v30 (F := Ideal) x) ?_ ?_ 2 ?_ (ix6 b c (0 : Fin 1) h w d) ?_ ?_).trans (copy_2 x b c 0 h w d)
  · show 2 < 16; decide
  · rfl
  · rfl
  · -- the pieces before this one have extent 1 each
    rw [List.map_take]
    show ((List.take 2 [S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48]).map _).sum = 2
    decide +kernel
  · exact fun a => match a with
      | ⟨0, _⟩ => fun _ => rfl
      | ⟨1, _⟩ => fun _ => rfl
      | ⟨2, _⟩ => fun hne => (hne (Fin.ext rfl)).elim
      | ⟨3, _⟩ => fun _ => rfl
      | ⟨4, _⟩ => fun _ => rfl
      | ⟨5, _⟩ => fun _ => rfl
  · rfl

theorem first_3 (x : Vol) (b : Fin 2) (c : Fin 16) (h w d : Fin 48) :
    val_main_v55 (F := Ideal) x (ix6 b c (⟨3, by decide⟩ : Fin 16) h w d)
      = padded x b c (h.val + 0) (w.val + 1) (d.val + 0) := by
  unfold val_main_v55
  refine (concatenate_apply_piece _ _ _ (ix6 b c (⟨3, by decide⟩ : Fin 16) h w d) 3 ?_ S2x16x1x48x48x48
    (val_main_v31 (F := Ideal) x) ?_ ?_ 3 ?_ (ix6 b c (0 : Fin 1) h w d) ?_ ?_).trans (copy_3 x b c 0 h w d)
  · show 3 < 16; decide
  · rfl
  · rfl
  · -- the pieces before this one have extent 1 each
    rw [List.map_take]
    show ((List.take 3 [S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48]).map _).sum = 3
    decide +kernel
  · exact fun a => match a with
      | ⟨0, _⟩ => fun _ => rfl
      | ⟨1, _⟩ => fun _ => rfl
      | ⟨2, _⟩ => fun hne => (hne (Fin.ext rfl)).elim
      | ⟨3, _⟩ => fun _ => rfl
      | ⟨4, _⟩ => fun _ => rfl
      | ⟨5, _⟩ => fun _ => rfl
  · rfl

theorem first_4 (x : Vol) (b : Fin 2) (c : Fin 16) (h w d : Fin 48) :
    val_main_v55 (F := Ideal) x (ix6 b c (⟨4, by decide⟩ : Fin 16) h w d)
      = padded x b c (h.val + 0) (w.val + 1) (d.val + 1) := by
  unfold val_main_v55
  refine (concatenate_apply_piece _ _ _ (ix6 b c (⟨4, by decide⟩ : Fin 16) h w d) 4 ?_ S2x16x1x48x48x48
    (val_main_v32 (F := Ideal) x) ?_ ?_ 4 ?_ (ix6 b c (0 : Fin 1) h w d) ?_ ?_).trans (copy_4 x b c 0 h w d)
  · show 4 < 16; decide
  · rfl
  · rfl
  · -- the pieces before this one have extent 1 each
    rw [List.map_take]
    show ((List.take 4 [S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48]).map _).sum = 4
    decide +kernel
  · exact fun a => match a with
      | ⟨0, _⟩ => fun _ => rfl
      | ⟨1, _⟩ => fun _ => rfl
      | ⟨2, _⟩ => fun hne => (hne (Fin.ext rfl)).elim
      | ⟨3, _⟩ => fun _ => rfl
      | ⟨4, _⟩ => fun _ => rfl
      | ⟨5, _⟩ => fun _ => rfl
  · rfl

theorem first_5 (x : Vol) (b : Fin 2) (c : Fin 16) (h w d : Fin 48) :
    val_main_v55 (F := Ideal) x (ix6 b c (⟨5, by decide⟩ : Fin 16) h w d)
      = padded x b c (h.val + 0) (w.val + 1) (d.val + 2) := by
  unfold val_main_v55
  refine (concatenate_apply_piece _ _ _ (ix6 b c (⟨5, by decide⟩ : Fin 16) h w d) 5 ?_ S2x16x1x48x48x48
    (val_main_v33 (F := Ideal) x) ?_ ?_ 5 ?_ (ix6 b c (0 : Fin 1) h w d) ?_ ?_).trans (copy_5 x b c 0 h w d)
  · show 5 < 16; decide
  · rfl
  · rfl
  · -- the pieces before this one have extent 1 each
    rw [List.map_take]
    show ((List.take 5 [S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48]).map _).sum = 5
    decide +kernel
  · exact fun a => match a with
      | ⟨0, _⟩ => fun _ => rfl
      | ⟨1, _⟩ => fun _ => rfl
      | ⟨2, _⟩ => fun hne => (hne (Fin.ext rfl)).elim
      | ⟨3, _⟩ => fun _ => rfl
      | ⟨4, _⟩ => fun _ => rfl
      | ⟨5, _⟩ => fun _ => rfl
  · rfl

theorem first_6 (x : Vol) (b : Fin 2) (c : Fin 16) (h w d : Fin 48) :
    val_main_v55 (F := Ideal) x (ix6 b c (⟨6, by decide⟩ : Fin 16) h w d)
      = padded x b c (h.val + 0) (w.val + 2) (d.val + 0) := by
  unfold val_main_v55
  refine (concatenate_apply_piece _ _ _ (ix6 b c (⟨6, by decide⟩ : Fin 16) h w d) 6 ?_ S2x16x1x48x48x48
    (val_main_v34 (F := Ideal) x) ?_ ?_ 6 ?_ (ix6 b c (0 : Fin 1) h w d) ?_ ?_).trans (copy_6 x b c 0 h w d)
  · show 6 < 16; decide
  · rfl
  · rfl
  · -- the pieces before this one have extent 1 each
    rw [List.map_take]
    show ((List.take 6 [S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48]).map _).sum = 6
    decide +kernel
  · exact fun a => match a with
      | ⟨0, _⟩ => fun _ => rfl
      | ⟨1, _⟩ => fun _ => rfl
      | ⟨2, _⟩ => fun hne => (hne (Fin.ext rfl)).elim
      | ⟨3, _⟩ => fun _ => rfl
      | ⟨4, _⟩ => fun _ => rfl
      | ⟨5, _⟩ => fun _ => rfl
  · rfl

theorem first_7 (x : Vol) (b : Fin 2) (c : Fin 16) (h w d : Fin 48) :
    val_main_v55 (F := Ideal) x (ix6 b c (⟨7, by decide⟩ : Fin 16) h w d)
      = padded x b c (h.val + 0) (w.val + 2) (d.val + 1) := by
  unfold val_main_v55
  refine (concatenate_apply_piece _ _ _ (ix6 b c (⟨7, by decide⟩ : Fin 16) h w d) 7 ?_ S2x16x1x48x48x48
    (val_main_v35 (F := Ideal) x) ?_ ?_ 7 ?_ (ix6 b c (0 : Fin 1) h w d) ?_ ?_).trans (copy_7 x b c 0 h w d)
  · show 7 < 16; decide
  · rfl
  · rfl
  · -- the pieces before this one have extent 1 each
    rw [List.map_take]
    show ((List.take 7 [S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48]).map _).sum = 7
    decide +kernel
  · exact fun a => match a with
      | ⟨0, _⟩ => fun _ => rfl
      | ⟨1, _⟩ => fun _ => rfl
      | ⟨2, _⟩ => fun hne => (hne (Fin.ext rfl)).elim
      | ⟨3, _⟩ => fun _ => rfl
      | ⟨4, _⟩ => fun _ => rfl
      | ⟨5, _⟩ => fun _ => rfl
  · rfl

theorem first_8 (x : Vol) (b : Fin 2) (c : Fin 16) (h w d : Fin 48) :
    val_main_v55 (F := Ideal) x (ix6 b c (⟨8, by decide⟩ : Fin 16) h w d)
      = padded x b c (h.val + 0) (w.val + 2) (d.val + 2) := by
  unfold val_main_v55
  refine (concatenate_apply_piece _ _ _ (ix6 b c (⟨8, by decide⟩ : Fin 16) h w d) 8 ?_ S2x16x1x48x48x48
    (val_main_v36 (F := Ideal) x) ?_ ?_ 8 ?_ (ix6 b c (0 : Fin 1) h w d) ?_ ?_).trans (copy_8 x b c 0 h w d)
  · show 8 < 16; decide
  · rfl
  · rfl
  · -- the pieces before this one have extent 1 each
    rw [List.map_take]
    show ((List.take 8 [S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48]).map _).sum = 8
    decide +kernel
  · exact fun a => match a with
      | ⟨0, _⟩ => fun _ => rfl
      | ⟨1, _⟩ => fun _ => rfl
      | ⟨2, _⟩ => fun hne => (hne (Fin.ext rfl)).elim
      | ⟨3, _⟩ => fun _ => rfl
      | ⟨4, _⟩ => fun _ => rfl
      | ⟨5, _⟩ => fun _ => rfl
  · rfl

theorem first_9 (x : Vol) (b : Fin 2) (c : Fin 16) (h w d : Fin 48) :
    val_main_v55 (F := Ideal) x (ix6 b c (⟨9, by decide⟩ : Fin 16) h w d)
      = padded x b c (h.val + 1) (w.val + 0) (d.val + 0) := by
  unfold val_main_v55
  refine (concatenate_apply_piece _ _ _ (ix6 b c (⟨9, by decide⟩ : Fin 16) h w d) 9 ?_ S2x16x1x48x48x48
    (val_main_v37 (F := Ideal) x) ?_ ?_ 9 ?_ (ix6 b c (0 : Fin 1) h w d) ?_ ?_).trans (copy_9 x b c 0 h w d)
  · show 9 < 16; decide
  · rfl
  · rfl
  · -- the pieces before this one have extent 1 each
    rw [List.map_take]
    show ((List.take 9 [S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48]).map _).sum = 9
    decide +kernel
  · exact fun a => match a with
      | ⟨0, _⟩ => fun _ => rfl
      | ⟨1, _⟩ => fun _ => rfl
      | ⟨2, _⟩ => fun hne => (hne (Fin.ext rfl)).elim
      | ⟨3, _⟩ => fun _ => rfl
      | ⟨4, _⟩ => fun _ => rfl
      | ⟨5, _⟩ => fun _ => rfl
  · rfl

theorem first_10 (x : Vol) (b : Fin 2) (c : Fin 16) (h w d : Fin 48) :
    val_main_v55 (F := Ideal) x (ix6 b c (⟨10, by decide⟩ : Fin 16) h w d)
      = padded x b c (h.val + 1) (w.val + 0) (d.val + 1) := by
  unfold val_main_v55
  refine (concatenate_apply_piece _ _ _ (ix6 b c (⟨10, by decide⟩ : Fin 16) h w d) 10 ?_ S2x16x1x48x48x48
    (val_main_v38 (F := Ideal) x) ?_ ?_ 10 ?_ (ix6 b c (0 : Fin 1) h w d) ?_ ?_).trans (copy_10 x b c 0 h w d)
  · show 10 < 16; decide
  · rfl
  · rfl
  · -- the pieces before this one have extent 1 each
    rw [List.map_take]
    show ((List.take 10 [S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48]).map _).sum = 10
    decide +kernel
  · exact fun a => match a with
      | ⟨0, _⟩ => fun _ => rfl
      | ⟨1, _⟩ => fun _ => rfl
      | ⟨2, _⟩ => fun hne => (hne (Fin.ext rfl)).elim
      | ⟨3, _⟩ => fun _ => rfl
      | ⟨4, _⟩ => fun _ => rfl
      | ⟨5, _⟩ => fun _ => rfl
  · rfl

theorem first_11 (x : Vol) (b : Fin 2) (c : Fin 16) (h w d : Fin 48) :
    val_main_v55 (F := Ideal) x (ix6 b c (⟨11, by decide⟩ : Fin 16) h w d)
      = padded x b c (h.val + 1) (w.val + 0) (d.val + 2) := by
  unfold val_main_v55
  refine (concatenate_apply_piece _ _ _ (ix6 b c (⟨11, by decide⟩ : Fin 16) h w d) 11 ?_ S2x16x1x48x48x48
    (val_main_v39 (F := Ideal) x) ?_ ?_ 11 ?_ (ix6 b c (0 : Fin 1) h w d) ?_ ?_).trans (copy_11 x b c 0 h w d)
  · show 11 < 16; decide
  · rfl
  · rfl
  · -- the pieces before this one have extent 1 each
    rw [List.map_take]
    show ((List.take 11 [S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48]).map _).sum = 11
    decide +kernel
  · exact fun a => match a with
      | ⟨0, _⟩ => fun _ => rfl
      | ⟨1, _⟩ => fun _ => rfl
      | ⟨2, _⟩ => fun hne => (hne (Fin.ext rfl)).elim
      | ⟨3, _⟩ => fun _ => rfl
      | ⟨4, _⟩ => fun _ => rfl
      | ⟨5, _⟩ => fun _ => rfl
  · rfl

theorem first_12 (x : Vol) (b : Fin 2) (c : Fin 16) (h w d : Fin 48) :
    val_main_v55 (F := Ideal) x (ix6 b c (⟨12, by decide⟩ : Fin 16) h w d)
      = padded x b c (h.val + 1) (w.val + 1) (d.val + 0) := by
  unfold val_main_v55
  refine (concatenate_apply_piece _ _ _ (ix6 b c (⟨12, by decide⟩ : Fin 16) h w d) 12 ?_ S2x16x1x48x48x48
    (val_main_v40 (F := Ideal) x) ?_ ?_ 12 ?_ (ix6 b c (0 : Fin 1) h w d) ?_ ?_).trans (copy_12 x b c 0 h w d)
  · show 12 < 16; decide
  · rfl
  · rfl
  · -- the pieces before this one have extent 1 each
    rw [List.map_take]
    show ((List.take 12 [S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48]).map _).sum = 12
    decide +kernel
  · exact fun a => match a with
      | ⟨0, _⟩ => fun _ => rfl
      | ⟨1, _⟩ => fun _ => rfl
      | ⟨2, _⟩ => fun hne => (hne (Fin.ext rfl)).elim
      | ⟨3, _⟩ => fun _ => rfl
      | ⟨4, _⟩ => fun _ => rfl
      | ⟨5, _⟩ => fun _ => rfl
  · rfl

theorem first_13 (x : Vol) (b : Fin 2) (c : Fin 16) (h w d : Fin 48) :
    val_main_v55 (F := Ideal) x (ix6 b c (⟨13, by decide⟩ : Fin 16) h w d)
      = padded x b c (h.val + 1) (w.val + 1) (d.val + 1) := by
  unfold val_main_v55
  refine (concatenate_apply_piece _ _ _ (ix6 b c (⟨13, by decide⟩ : Fin 16) h w d) 13 ?_ S2x16x1x48x48x48
    (val_main_v41 (F := Ideal) x) ?_ ?_ 13 ?_ (ix6 b c (0 : Fin 1) h w d) ?_ ?_).trans (copy_13 x b c 0 h w d)
  · show 13 < 16; decide
  · rfl
  · rfl
  · -- the pieces before this one have extent 1 each
    rw [List.map_take]
    show ((List.take 13 [S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48]).map _).sum = 13
    decide +kernel
  · exact fun a => match a with
      | ⟨0, _⟩ => fun _ => rfl
      | ⟨1, _⟩ => fun _ => rfl
      | ⟨2, _⟩ => fun hne => (hne (Fin.ext rfl)).elim
      | ⟨3, _⟩ => fun _ => rfl
      | ⟨4, _⟩ => fun _ => rfl
      | ⟨5, _⟩ => fun _ => rfl
  · rfl

theorem first_14 (x : Vol) (b : Fin 2) (c : Fin 16) (h w d : Fin 48) :
    val_main_v55 (F := Ideal) x (ix6 b c (⟨14, by decide⟩ : Fin 16) h w d)
      = padded x b c (h.val + 1) (w.val + 1) (d.val + 2) := by
  unfold val_main_v55
  refine (concatenate_apply_piece _ _ _ (ix6 b c (⟨14, by decide⟩ : Fin 16) h w d) 14 ?_ S2x16x1x48x48x48
    (val_main_v42 (F := Ideal) x) ?_ ?_ 14 ?_ (ix6 b c (0 : Fin 1) h w d) ?_ ?_).trans (copy_14 x b c 0 h w d)
  · show 14 < 16; decide
  · rfl
  · rfl
  · -- the pieces before this one have extent 1 each
    rw [List.map_take]
    show ((List.take 14 [S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48]).map _).sum = 14
    decide +kernel
  · exact fun a => match a with
      | ⟨0, _⟩ => fun _ => rfl
      | ⟨1, _⟩ => fun _ => rfl
      | ⟨2, _⟩ => fun hne => (hne (Fin.ext rfl)).elim
      | ⟨3, _⟩ => fun _ => rfl
      | ⟨4, _⟩ => fun _ => rfl
      | ⟨5, _⟩ => fun _ => rfl
  · rfl

theorem first_15 (x : Vol) (b : Fin 2) (c : Fin 16) (h w d : Fin 48) :
    val_main_v55 (F := Ideal) x (ix6 b c (⟨15, by decide⟩ : Fin 16) h w d)
      = padded x b c (h.val + 1) (w.val + 2) (d.val + 0) := by
  unfold val_main_v55
  refine (concatenate_apply_piece _ _ _ (ix6 b c (⟨15, by decide⟩ : Fin 16) h w d) 15 ?_ S2x16x1x48x48x48
    (val_main_v43 (F := Ideal) x) ?_ ?_ 15 ?_ (ix6 b c (0 : Fin 1) h w d) ?_ ?_).trans (copy_15 x b c 0 h w d)
  · show 15 < 16; decide
  · rfl
  · rfl
  · -- the pieces before this one have extent 1 each
    rw [List.map_take]
    show ((List.take 15 [S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48]).map _).sum = 15
    decide +kernel
  · exact fun a => match a with
      | ⟨0, _⟩ => fun _ => rfl
      | ⟨1, _⟩ => fun _ => rfl
      | ⟨2, _⟩ => fun hne => (hne (Fin.ext rfl)).elim
      | ⟨3, _⟩ => fun _ => rfl
      | ⟨4, _⟩ => fun _ => rfl
      | ⟨5, _⟩ => fun _ => rfl
  · rfl

theorem last_0 (x : Vol) (b : Fin 2) (c : Fin 16) (h w d : Fin 48) :
    val_main_v56 (F := Ideal) x (ix6 b c (⟨0, by decide⟩ : Fin 11) h w d)
      = padded x b c (h.val + 1) (w.val + 2) (d.val + 1) := by
  unfold val_main_v56
  refine (concatenate_apply_piece _ _ _ (ix6 b c (⟨0, by decide⟩ : Fin 11) h w d) 0 ?_ S2x16x1x48x48x48
    (val_main_v44 (F := Ideal) x) ?_ ?_ 0 ?_ (ix6 b c (0 : Fin 1) h w d) ?_ ?_).trans (copy_16 x b c 0 h w d)
  · show 0 < 11; decide
  · rfl
  · rfl
  · -- the pieces before this one have extent 1 each
    rw [List.map_take]
    show ((List.take 0 [S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48]).map _).sum = 0
    decide +kernel
  · exact fun a => match a with
      | ⟨0, _⟩ => fun _ => rfl
      | ⟨1, _⟩ => fun _ => rfl
      | ⟨2, _⟩ => fun hne => (hne (Fin.ext rfl)).elim
      | ⟨3, _⟩ => fun _ => rfl
      | ⟨4, _⟩ => fun _ => rfl
      | ⟨5, _⟩ => fun _ => rfl
  · rfl

theorem last_1 (x : Vol) (b : Fin 2) (c : Fin 16) (h w d : Fin 48) :
    val_main_v56 (F := Ideal) x (ix6 b c (⟨1, by decide⟩ : Fin 11) h w d)
      = padded x b c (h.val + 1) (w.val + 2) (d.val + 2) := by
  unfold val_main_v56
  refine (concatenate_apply_piece _ _ _ (ix6 b c (⟨1, by decide⟩ : Fin 11) h w d) 1 ?_ S2x16x1x48x48x48
    (val_main_v45 (F := Ideal) x) ?_ ?_ 1 ?_ (ix6 b c (0 : Fin 1) h w d) ?_ ?_).trans (copy_17 x b c 0 h w d)
  · show 1 < 11; decide
  · rfl
  · rfl
  · -- the pieces before this one have extent 1 each
    rw [List.map_take]
    show ((List.take 1 [S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48]).map _).sum = 1
    decide +kernel
  · exact fun a => match a with
      | ⟨0, _⟩ => fun _ => rfl
      | ⟨1, _⟩ => fun _ => rfl
      | ⟨2, _⟩ => fun hne => (hne (Fin.ext rfl)).elim
      | ⟨3, _⟩ => fun _ => rfl
      | ⟨4, _⟩ => fun _ => rfl
      | ⟨5, _⟩ => fun _ => rfl
  · rfl

theorem last_2 (x : Vol) (b : Fin 2) (c : Fin 16) (h w d : Fin 48) :
    val_main_v56 (F := Ideal) x (ix6 b c (⟨2, by decide⟩ : Fin 11) h w d)
      = padded x b c (h.val + 2) (w.val + 0) (d.val + 0) := by
  unfold val_main_v56
  refine (concatenate_apply_piece _ _ _ (ix6 b c (⟨2, by decide⟩ : Fin 11) h w d) 2 ?_ S2x16x1x48x48x48
    (val_main_v46 (F := Ideal) x) ?_ ?_ 2 ?_ (ix6 b c (0 : Fin 1) h w d) ?_ ?_).trans (copy_18 x b c 0 h w d)
  · show 2 < 11; decide
  · rfl
  · rfl
  · -- the pieces before this one have extent 1 each
    rw [List.map_take]
    show ((List.take 2 [S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48]).map _).sum = 2
    decide +kernel
  · exact fun a => match a with
      | ⟨0, _⟩ => fun _ => rfl
      | ⟨1, _⟩ => fun _ => rfl
      | ⟨2, _⟩ => fun hne => (hne (Fin.ext rfl)).elim
      | ⟨3, _⟩ => fun _ => rfl
      | ⟨4, _⟩ => fun _ => rfl
      | ⟨5, _⟩ => fun _ => rfl
  · rfl

theorem last_3 (x : Vol) (b : Fin 2) (c : Fin 16) (h w d : Fin 48) :
    val_main_v56 (F := Ideal) x (ix6 b c (⟨3, by decide⟩ : Fin 11) h w d)
      = padded x b c (h.val + 2) (w.val + 0) (d.val + 1) := by
  unfold val_main_v56
  refine (concatenate_apply_piece _ _ _ (ix6 b c (⟨3, by decide⟩ : Fin 11) h w d) 3 ?_ S2x16x1x48x48x48
    (val_main_v47 (F := Ideal) x) ?_ ?_ 3 ?_ (ix6 b c (0 : Fin 1) h w d) ?_ ?_).trans (copy_19 x b c 0 h w d)
  · show 3 < 11; decide
  · rfl
  · rfl
  · -- the pieces before this one have extent 1 each
    rw [List.map_take]
    show ((List.take 3 [S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48]).map _).sum = 3
    decide +kernel
  · exact fun a => match a with
      | ⟨0, _⟩ => fun _ => rfl
      | ⟨1, _⟩ => fun _ => rfl
      | ⟨2, _⟩ => fun hne => (hne (Fin.ext rfl)).elim
      | ⟨3, _⟩ => fun _ => rfl
      | ⟨4, _⟩ => fun _ => rfl
      | ⟨5, _⟩ => fun _ => rfl
  · rfl

theorem last_4 (x : Vol) (b : Fin 2) (c : Fin 16) (h w d : Fin 48) :
    val_main_v56 (F := Ideal) x (ix6 b c (⟨4, by decide⟩ : Fin 11) h w d)
      = padded x b c (h.val + 2) (w.val + 0) (d.val + 2) := by
  unfold val_main_v56
  refine (concatenate_apply_piece _ _ _ (ix6 b c (⟨4, by decide⟩ : Fin 11) h w d) 4 ?_ S2x16x1x48x48x48
    (val_main_v48 (F := Ideal) x) ?_ ?_ 4 ?_ (ix6 b c (0 : Fin 1) h w d) ?_ ?_).trans (copy_20 x b c 0 h w d)
  · show 4 < 11; decide
  · rfl
  · rfl
  · -- the pieces before this one have extent 1 each
    rw [List.map_take]
    show ((List.take 4 [S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48]).map _).sum = 4
    decide +kernel
  · exact fun a => match a with
      | ⟨0, _⟩ => fun _ => rfl
      | ⟨1, _⟩ => fun _ => rfl
      | ⟨2, _⟩ => fun hne => (hne (Fin.ext rfl)).elim
      | ⟨3, _⟩ => fun _ => rfl
      | ⟨4, _⟩ => fun _ => rfl
      | ⟨5, _⟩ => fun _ => rfl
  · rfl

theorem last_5 (x : Vol) (b : Fin 2) (c : Fin 16) (h w d : Fin 48) :
    val_main_v56 (F := Ideal) x (ix6 b c (⟨5, by decide⟩ : Fin 11) h w d)
      = padded x b c (h.val + 2) (w.val + 1) (d.val + 0) := by
  unfold val_main_v56
  refine (concatenate_apply_piece _ _ _ (ix6 b c (⟨5, by decide⟩ : Fin 11) h w d) 5 ?_ S2x16x1x48x48x48
    (val_main_v49 (F := Ideal) x) ?_ ?_ 5 ?_ (ix6 b c (0 : Fin 1) h w d) ?_ ?_).trans (copy_21 x b c 0 h w d)
  · show 5 < 11; decide
  · rfl
  · rfl
  · -- the pieces before this one have extent 1 each
    rw [List.map_take]
    show ((List.take 5 [S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48]).map _).sum = 5
    decide +kernel
  · exact fun a => match a with
      | ⟨0, _⟩ => fun _ => rfl
      | ⟨1, _⟩ => fun _ => rfl
      | ⟨2, _⟩ => fun hne => (hne (Fin.ext rfl)).elim
      | ⟨3, _⟩ => fun _ => rfl
      | ⟨4, _⟩ => fun _ => rfl
      | ⟨5, _⟩ => fun _ => rfl
  · rfl

theorem last_6 (x : Vol) (b : Fin 2) (c : Fin 16) (h w d : Fin 48) :
    val_main_v56 (F := Ideal) x (ix6 b c (⟨6, by decide⟩ : Fin 11) h w d)
      = padded x b c (h.val + 2) (w.val + 1) (d.val + 1) := by
  unfold val_main_v56
  refine (concatenate_apply_piece _ _ _ (ix6 b c (⟨6, by decide⟩ : Fin 11) h w d) 6 ?_ S2x16x1x48x48x48
    (val_main_v50 (F := Ideal) x) ?_ ?_ 6 ?_ (ix6 b c (0 : Fin 1) h w d) ?_ ?_).trans (copy_22 x b c 0 h w d)
  · show 6 < 11; decide
  · rfl
  · rfl
  · -- the pieces before this one have extent 1 each
    rw [List.map_take]
    show ((List.take 6 [S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48]).map _).sum = 6
    decide +kernel
  · exact fun a => match a with
      | ⟨0, _⟩ => fun _ => rfl
      | ⟨1, _⟩ => fun _ => rfl
      | ⟨2, _⟩ => fun hne => (hne (Fin.ext rfl)).elim
      | ⟨3, _⟩ => fun _ => rfl
      | ⟨4, _⟩ => fun _ => rfl
      | ⟨5, _⟩ => fun _ => rfl
  · rfl

theorem last_7 (x : Vol) (b : Fin 2) (c : Fin 16) (h w d : Fin 48) :
    val_main_v56 (F := Ideal) x (ix6 b c (⟨7, by decide⟩ : Fin 11) h w d)
      = padded x b c (h.val + 2) (w.val + 1) (d.val + 2) := by
  unfold val_main_v56
  refine (concatenate_apply_piece _ _ _ (ix6 b c (⟨7, by decide⟩ : Fin 11) h w d) 7 ?_ S2x16x1x48x48x48
    (val_main_v51 (F := Ideal) x) ?_ ?_ 7 ?_ (ix6 b c (0 : Fin 1) h w d) ?_ ?_).trans (copy_23 x b c 0 h w d)
  · show 7 < 11; decide
  · rfl
  · rfl
  · -- the pieces before this one have extent 1 each
    rw [List.map_take]
    show ((List.take 7 [S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48]).map _).sum = 7
    decide +kernel
  · exact fun a => match a with
      | ⟨0, _⟩ => fun _ => rfl
      | ⟨1, _⟩ => fun _ => rfl
      | ⟨2, _⟩ => fun hne => (hne (Fin.ext rfl)).elim
      | ⟨3, _⟩ => fun _ => rfl
      | ⟨4, _⟩ => fun _ => rfl
      | ⟨5, _⟩ => fun _ => rfl
  · rfl

theorem last_8 (x : Vol) (b : Fin 2) (c : Fin 16) (h w d : Fin 48) :
    val_main_v56 (F := Ideal) x (ix6 b c (⟨8, by decide⟩ : Fin 11) h w d)
      = padded x b c (h.val + 2) (w.val + 2) (d.val + 0) := by
  unfold val_main_v56
  refine (concatenate_apply_piece _ _ _ (ix6 b c (⟨8, by decide⟩ : Fin 11) h w d) 8 ?_ S2x16x1x48x48x48
    (val_main_v52 (F := Ideal) x) ?_ ?_ 8 ?_ (ix6 b c (0 : Fin 1) h w d) ?_ ?_).trans (copy_24 x b c 0 h w d)
  · show 8 < 11; decide
  · rfl
  · rfl
  · -- the pieces before this one have extent 1 each
    rw [List.map_take]
    show ((List.take 8 [S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48]).map _).sum = 8
    decide +kernel
  · exact fun a => match a with
      | ⟨0, _⟩ => fun _ => rfl
      | ⟨1, _⟩ => fun _ => rfl
      | ⟨2, _⟩ => fun hne => (hne (Fin.ext rfl)).elim
      | ⟨3, _⟩ => fun _ => rfl
      | ⟨4, _⟩ => fun _ => rfl
      | ⟨5, _⟩ => fun _ => rfl
  · rfl

theorem last_9 (x : Vol) (b : Fin 2) (c : Fin 16) (h w d : Fin 48) :
    val_main_v56 (F := Ideal) x (ix6 b c (⟨9, by decide⟩ : Fin 11) h w d)
      = padded x b c (h.val + 2) (w.val + 2) (d.val + 1) := by
  unfold val_main_v56
  refine (concatenate_apply_piece _ _ _ (ix6 b c (⟨9, by decide⟩ : Fin 11) h w d) 9 ?_ S2x16x1x48x48x48
    (val_main_v53 (F := Ideal) x) ?_ ?_ 9 ?_ (ix6 b c (0 : Fin 1) h w d) ?_ ?_).trans (copy_25 x b c 0 h w d)
  · show 9 < 11; decide
  · rfl
  · rfl
  · -- the pieces before this one have extent 1 each
    rw [List.map_take]
    show ((List.take 9 [S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48]).map _).sum = 9
    decide +kernel
  · exact fun a => match a with
      | ⟨0, _⟩ => fun _ => rfl
      | ⟨1, _⟩ => fun _ => rfl
      | ⟨2, _⟩ => fun hne => (hne (Fin.ext rfl)).elim
      | ⟨3, _⟩ => fun _ => rfl
      | ⟨4, _⟩ => fun _ => rfl
      | ⟨5, _⟩ => fun _ => rfl
  · rfl

theorem last_10 (x : Vol) (b : Fin 2) (c : Fin 16) (h w d : Fin 48) :
    val_main_v56 (F := Ideal) x (ix6 b c (⟨10, by decide⟩ : Fin 11) h w d)
      = padded x b c (h.val + 2) (w.val + 2) (d.val + 2) := by
  unfold val_main_v56
  refine (concatenate_apply_piece _ _ _ (ix6 b c (⟨10, by decide⟩ : Fin 11) h w d) 10 ?_ S2x16x1x48x48x48
    (val_main_v54 (F := Ideal) x) ?_ ?_ 10 ?_ (ix6 b c (0 : Fin 1) h w d) ?_ ?_).trans (copy_26 x b c 0 h w d)
  · show 10 < 11; decide
  · rfl
  · rfl
  · -- the pieces before this one have extent 1 each
    rw [List.map_take]
    show ((List.take 10 [S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48]).map _).sum = 10
    decide +kernel
  · exact fun a => match a with
      | ⟨0, _⟩ => fun _ => rfl
      | ⟨1, _⟩ => fun _ => rfl
      | ⟨2, _⟩ => fun hne => (hne (Fin.ext rfl)).elim
      | ⟨3, _⟩ => fun _ => rfl
      | ⟨4, _⟩ => fun _ => rfl
      | ⟨5, _⟩ => fun _ => rfl
  · rfl

/-! ## The join of the two joins -/

/-- A copy below 16 of the whole is that copy of the first join. -/
theorem joined_low (x : Vol) (b : Fin 2) (c : Fin 16) (k : Fin 27) (hk : k.val < 16) (h w d : Fin 48) :
    val_main_v57 (F := Ideal) x (ix6 b c k h w d)
      = val_main_v55 (F := Ideal) x (ix6 b c (⟨k.val, hk⟩ : Fin 16) h w d) := by
  unfold val_main_v57
  exact concatenate_pair_apply_left (t := S2x16x27x48x48x48) (s₁ := S2x16x16x48x48x48) (s₂ := S2x16x11x48x48x48)
    _ _ _ _ (ix6 b c k h w d) rfl (ix6 b c (⟨k.val, hk⟩ : Fin 16) h w d)
    (fun a => match a with
      | ⟨0, _⟩ => rfl
      | ⟨1, _⟩ => rfl
      | ⟨2, _⟩ => rfl
      | ⟨3, _⟩ => rfl
      | ⟨4, _⟩ => rfl
      | ⟨5, _⟩ => rfl)

/-- A copy from 16 on of the whole is that copy less 16 of the second join. -/
theorem joined_high (x : Vol) (b : Fin 2) (c : Fin 16) (k : Fin 27) (hk : 16 ≤ k.val) (h w d : Fin 48) :
    val_main_v57 (F := Ideal) x (ix6 b c k h w d)
      = val_main_v56 (F := Ideal) x (ix6 b c (⟨k.val - 16, by have := k.isLt; omega⟩ : Fin 11) h w d) := by
  unfold val_main_v57
  exact concatenate_pair_apply_right (t := S2x16x27x48x48x48) (s₁ := S2x16x16x48x48x48) (s₂ := S2x16x11x48x48x48)
    _ _ _ _ (ix6 b c k h w d) rfl rfl
    (ix6 b c (⟨k.val - 16, by have := k.isLt; omega⟩ : Fin 11) h w d)
    (fun a => match a with
      | ⟨0, _⟩ => fun _ => rfl
      | ⟨1, _⟩ => fun _ => rfl
      | ⟨2, _⟩ => fun hne => (hne (Fin.ext rfl)).elim
      | ⟨3, _⟩ => fun _ => rfl
      | ⟨4, _⟩ => fun _ => rfl
      | ⟨5, _⟩ => fun _ => rfl)
    (by show k.val - 16 + 16 = k.val; omega)

/-! ## Each copy of the whole is the specification's -/

theorem patch_0 (x : Vol) (b : Fin 2) (c : Fin 16) (h w d : Fin 48) :
    val_main_v57 (F := Ideal) x (ix6 b c (⟨0, by decide⟩ : Fin 27) h w d)
      = patches x (ix6 b c (⟨0, by decide⟩ : Fin 27) h w d) := by
  refine (joined_low x b c (⟨0, by decide⟩ : Fin 27) (by decide) h w d).trans ?_
  refine (first_0 x b c h w d).trans ?_
  -- 0 / 9 = 0, 0 / 3 % 3 = 0, 0 % 3 = 0
  show padded x b c (h.val + 0) (w.val + 0) (d.val + 0)
    = padded x b c (h.val + 0 / 9) (w.val + 0 / 3 % 3) (d.val + 0 % 3)
  rfl

theorem patch_1 (x : Vol) (b : Fin 2) (c : Fin 16) (h w d : Fin 48) :
    val_main_v57 (F := Ideal) x (ix6 b c (⟨1, by decide⟩ : Fin 27) h w d)
      = patches x (ix6 b c (⟨1, by decide⟩ : Fin 27) h w d) := by
  refine (joined_low x b c (⟨1, by decide⟩ : Fin 27) (by decide) h w d).trans ?_
  refine (first_1 x b c h w d).trans ?_
  -- 1 / 9 = 0, 1 / 3 % 3 = 0, 1 % 3 = 1
  show padded x b c (h.val + 0) (w.val + 0) (d.val + 1)
    = padded x b c (h.val + 1 / 9) (w.val + 1 / 3 % 3) (d.val + 1 % 3)
  rfl

theorem patch_2 (x : Vol) (b : Fin 2) (c : Fin 16) (h w d : Fin 48) :
    val_main_v57 (F := Ideal) x (ix6 b c (⟨2, by decide⟩ : Fin 27) h w d)
      = patches x (ix6 b c (⟨2, by decide⟩ : Fin 27) h w d) := by
  refine (joined_low x b c (⟨2, by decide⟩ : Fin 27) (by decide) h w d).trans ?_
  refine (first_2 x b c h w d).trans ?_
  -- 2 / 9 = 0, 2 / 3 % 3 = 0, 2 % 3 = 2
  show padded x b c (h.val + 0) (w.val + 0) (d.val + 2)
    = padded x b c (h.val + 2 / 9) (w.val + 2 / 3 % 3) (d.val + 2 % 3)
  rfl

theorem patch_3 (x : Vol) (b : Fin 2) (c : Fin 16) (h w d : Fin 48) :
    val_main_v57 (F := Ideal) x (ix6 b c (⟨3, by decide⟩ : Fin 27) h w d)
      = patches x (ix6 b c (⟨3, by decide⟩ : Fin 27) h w d) := by
  refine (joined_low x b c (⟨3, by decide⟩ : Fin 27) (by decide) h w d).trans ?_
  refine (first_3 x b c h w d).trans ?_
  -- 3 / 9 = 0, 3 / 3 % 3 = 1, 3 % 3 = 0
  show padded x b c (h.val + 0) (w.val + 1) (d.val + 0)
    = padded x b c (h.val + 3 / 9) (w.val + 3 / 3 % 3) (d.val + 3 % 3)
  rfl

theorem patch_4 (x : Vol) (b : Fin 2) (c : Fin 16) (h w d : Fin 48) :
    val_main_v57 (F := Ideal) x (ix6 b c (⟨4, by decide⟩ : Fin 27) h w d)
      = patches x (ix6 b c (⟨4, by decide⟩ : Fin 27) h w d) := by
  refine (joined_low x b c (⟨4, by decide⟩ : Fin 27) (by decide) h w d).trans ?_
  refine (first_4 x b c h w d).trans ?_
  -- 4 / 9 = 0, 4 / 3 % 3 = 1, 4 % 3 = 1
  show padded x b c (h.val + 0) (w.val + 1) (d.val + 1)
    = padded x b c (h.val + 4 / 9) (w.val + 4 / 3 % 3) (d.val + 4 % 3)
  rfl

theorem patch_5 (x : Vol) (b : Fin 2) (c : Fin 16) (h w d : Fin 48) :
    val_main_v57 (F := Ideal) x (ix6 b c (⟨5, by decide⟩ : Fin 27) h w d)
      = patches x (ix6 b c (⟨5, by decide⟩ : Fin 27) h w d) := by
  refine (joined_low x b c (⟨5, by decide⟩ : Fin 27) (by decide) h w d).trans ?_
  refine (first_5 x b c h w d).trans ?_
  -- 5 / 9 = 0, 5 / 3 % 3 = 1, 5 % 3 = 2
  show padded x b c (h.val + 0) (w.val + 1) (d.val + 2)
    = padded x b c (h.val + 5 / 9) (w.val + 5 / 3 % 3) (d.val + 5 % 3)
  rfl

theorem patch_6 (x : Vol) (b : Fin 2) (c : Fin 16) (h w d : Fin 48) :
    val_main_v57 (F := Ideal) x (ix6 b c (⟨6, by decide⟩ : Fin 27) h w d)
      = patches x (ix6 b c (⟨6, by decide⟩ : Fin 27) h w d) := by
  refine (joined_low x b c (⟨6, by decide⟩ : Fin 27) (by decide) h w d).trans ?_
  refine (first_6 x b c h w d).trans ?_
  -- 6 / 9 = 0, 6 / 3 % 3 = 2, 6 % 3 = 0
  show padded x b c (h.val + 0) (w.val + 2) (d.val + 0)
    = padded x b c (h.val + 6 / 9) (w.val + 6 / 3 % 3) (d.val + 6 % 3)
  rfl

theorem patch_7 (x : Vol) (b : Fin 2) (c : Fin 16) (h w d : Fin 48) :
    val_main_v57 (F := Ideal) x (ix6 b c (⟨7, by decide⟩ : Fin 27) h w d)
      = patches x (ix6 b c (⟨7, by decide⟩ : Fin 27) h w d) := by
  refine (joined_low x b c (⟨7, by decide⟩ : Fin 27) (by decide) h w d).trans ?_
  refine (first_7 x b c h w d).trans ?_
  -- 7 / 9 = 0, 7 / 3 % 3 = 2, 7 % 3 = 1
  show padded x b c (h.val + 0) (w.val + 2) (d.val + 1)
    = padded x b c (h.val + 7 / 9) (w.val + 7 / 3 % 3) (d.val + 7 % 3)
  rfl

theorem patch_8 (x : Vol) (b : Fin 2) (c : Fin 16) (h w d : Fin 48) :
    val_main_v57 (F := Ideal) x (ix6 b c (⟨8, by decide⟩ : Fin 27) h w d)
      = patches x (ix6 b c (⟨8, by decide⟩ : Fin 27) h w d) := by
  refine (joined_low x b c (⟨8, by decide⟩ : Fin 27) (by decide) h w d).trans ?_
  refine (first_8 x b c h w d).trans ?_
  -- 8 / 9 = 0, 8 / 3 % 3 = 2, 8 % 3 = 2
  show padded x b c (h.val + 0) (w.val + 2) (d.val + 2)
    = padded x b c (h.val + 8 / 9) (w.val + 8 / 3 % 3) (d.val + 8 % 3)
  rfl

theorem patch_9 (x : Vol) (b : Fin 2) (c : Fin 16) (h w d : Fin 48) :
    val_main_v57 (F := Ideal) x (ix6 b c (⟨9, by decide⟩ : Fin 27) h w d)
      = patches x (ix6 b c (⟨9, by decide⟩ : Fin 27) h w d) := by
  refine (joined_low x b c (⟨9, by decide⟩ : Fin 27) (by decide) h w d).trans ?_
  refine (first_9 x b c h w d).trans ?_
  -- 9 / 9 = 1, 9 / 3 % 3 = 0, 9 % 3 = 0
  show padded x b c (h.val + 1) (w.val + 0) (d.val + 0)
    = padded x b c (h.val + 9 / 9) (w.val + 9 / 3 % 3) (d.val + 9 % 3)
  rfl

theorem patch_10 (x : Vol) (b : Fin 2) (c : Fin 16) (h w d : Fin 48) :
    val_main_v57 (F := Ideal) x (ix6 b c (⟨10, by decide⟩ : Fin 27) h w d)
      = patches x (ix6 b c (⟨10, by decide⟩ : Fin 27) h w d) := by
  refine (joined_low x b c (⟨10, by decide⟩ : Fin 27) (by decide) h w d).trans ?_
  refine (first_10 x b c h w d).trans ?_
  -- 10 / 9 = 1, 10 / 3 % 3 = 0, 10 % 3 = 1
  show padded x b c (h.val + 1) (w.val + 0) (d.val + 1)
    = padded x b c (h.val + 10 / 9) (w.val + 10 / 3 % 3) (d.val + 10 % 3)
  rfl

theorem patch_11 (x : Vol) (b : Fin 2) (c : Fin 16) (h w d : Fin 48) :
    val_main_v57 (F := Ideal) x (ix6 b c (⟨11, by decide⟩ : Fin 27) h w d)
      = patches x (ix6 b c (⟨11, by decide⟩ : Fin 27) h w d) := by
  refine (joined_low x b c (⟨11, by decide⟩ : Fin 27) (by decide) h w d).trans ?_
  refine (first_11 x b c h w d).trans ?_
  -- 11 / 9 = 1, 11 / 3 % 3 = 0, 11 % 3 = 2
  show padded x b c (h.val + 1) (w.val + 0) (d.val + 2)
    = padded x b c (h.val + 11 / 9) (w.val + 11 / 3 % 3) (d.val + 11 % 3)
  rfl

theorem patch_12 (x : Vol) (b : Fin 2) (c : Fin 16) (h w d : Fin 48) :
    val_main_v57 (F := Ideal) x (ix6 b c (⟨12, by decide⟩ : Fin 27) h w d)
      = patches x (ix6 b c (⟨12, by decide⟩ : Fin 27) h w d) := by
  refine (joined_low x b c (⟨12, by decide⟩ : Fin 27) (by decide) h w d).trans ?_
  refine (first_12 x b c h w d).trans ?_
  -- 12 / 9 = 1, 12 / 3 % 3 = 1, 12 % 3 = 0
  show padded x b c (h.val + 1) (w.val + 1) (d.val + 0)
    = padded x b c (h.val + 12 / 9) (w.val + 12 / 3 % 3) (d.val + 12 % 3)
  rfl

theorem patch_13 (x : Vol) (b : Fin 2) (c : Fin 16) (h w d : Fin 48) :
    val_main_v57 (F := Ideal) x (ix6 b c (⟨13, by decide⟩ : Fin 27) h w d)
      = patches x (ix6 b c (⟨13, by decide⟩ : Fin 27) h w d) := by
  refine (joined_low x b c (⟨13, by decide⟩ : Fin 27) (by decide) h w d).trans ?_
  refine (first_13 x b c h w d).trans ?_
  -- 13 / 9 = 1, 13 / 3 % 3 = 1, 13 % 3 = 1
  show padded x b c (h.val + 1) (w.val + 1) (d.val + 1)
    = padded x b c (h.val + 13 / 9) (w.val + 13 / 3 % 3) (d.val + 13 % 3)
  rfl

theorem patch_14 (x : Vol) (b : Fin 2) (c : Fin 16) (h w d : Fin 48) :
    val_main_v57 (F := Ideal) x (ix6 b c (⟨14, by decide⟩ : Fin 27) h w d)
      = patches x (ix6 b c (⟨14, by decide⟩ : Fin 27) h w d) := by
  refine (joined_low x b c (⟨14, by decide⟩ : Fin 27) (by decide) h w d).trans ?_
  refine (first_14 x b c h w d).trans ?_
  -- 14 / 9 = 1, 14 / 3 % 3 = 1, 14 % 3 = 2
  show padded x b c (h.val + 1) (w.val + 1) (d.val + 2)
    = padded x b c (h.val + 14 / 9) (w.val + 14 / 3 % 3) (d.val + 14 % 3)
  rfl

theorem patch_15 (x : Vol) (b : Fin 2) (c : Fin 16) (h w d : Fin 48) :
    val_main_v57 (F := Ideal) x (ix6 b c (⟨15, by decide⟩ : Fin 27) h w d)
      = patches x (ix6 b c (⟨15, by decide⟩ : Fin 27) h w d) := by
  refine (joined_low x b c (⟨15, by decide⟩ : Fin 27) (by decide) h w d).trans ?_
  refine (first_15 x b c h w d).trans ?_
  -- 15 / 9 = 1, 15 / 3 % 3 = 2, 15 % 3 = 0
  show padded x b c (h.val + 1) (w.val + 2) (d.val + 0)
    = padded x b c (h.val + 15 / 9) (w.val + 15 / 3 % 3) (d.val + 15 % 3)
  rfl

theorem patch_16 (x : Vol) (b : Fin 2) (c : Fin 16) (h w d : Fin 48) :
    val_main_v57 (F := Ideal) x (ix6 b c (⟨16, by decide⟩ : Fin 27) h w d)
      = patches x (ix6 b c (⟨16, by decide⟩ : Fin 27) h w d) := by
  refine (joined_high x b c (⟨16, by decide⟩ : Fin 27) (by decide) h w d).trans ?_
  refine (last_0 x b c h w d).trans ?_
  -- 16 / 9 = 1, 16 / 3 % 3 = 2, 16 % 3 = 1
  show padded x b c (h.val + 1) (w.val + 2) (d.val + 1)
    = padded x b c (h.val + 16 / 9) (w.val + 16 / 3 % 3) (d.val + 16 % 3)
  rfl

theorem patch_17 (x : Vol) (b : Fin 2) (c : Fin 16) (h w d : Fin 48) :
    val_main_v57 (F := Ideal) x (ix6 b c (⟨17, by decide⟩ : Fin 27) h w d)
      = patches x (ix6 b c (⟨17, by decide⟩ : Fin 27) h w d) := by
  refine (joined_high x b c (⟨17, by decide⟩ : Fin 27) (by decide) h w d).trans ?_
  refine (last_1 x b c h w d).trans ?_
  -- 17 / 9 = 1, 17 / 3 % 3 = 2, 17 % 3 = 2
  show padded x b c (h.val + 1) (w.val + 2) (d.val + 2)
    = padded x b c (h.val + 17 / 9) (w.val + 17 / 3 % 3) (d.val + 17 % 3)
  rfl

theorem patch_18 (x : Vol) (b : Fin 2) (c : Fin 16) (h w d : Fin 48) :
    val_main_v57 (F := Ideal) x (ix6 b c (⟨18, by decide⟩ : Fin 27) h w d)
      = patches x (ix6 b c (⟨18, by decide⟩ : Fin 27) h w d) := by
  refine (joined_high x b c (⟨18, by decide⟩ : Fin 27) (by decide) h w d).trans ?_
  refine (last_2 x b c h w d).trans ?_
  -- 18 / 9 = 2, 18 / 3 % 3 = 0, 18 % 3 = 0
  show padded x b c (h.val + 2) (w.val + 0) (d.val + 0)
    = padded x b c (h.val + 18 / 9) (w.val + 18 / 3 % 3) (d.val + 18 % 3)
  rfl

theorem patch_19 (x : Vol) (b : Fin 2) (c : Fin 16) (h w d : Fin 48) :
    val_main_v57 (F := Ideal) x (ix6 b c (⟨19, by decide⟩ : Fin 27) h w d)
      = patches x (ix6 b c (⟨19, by decide⟩ : Fin 27) h w d) := by
  refine (joined_high x b c (⟨19, by decide⟩ : Fin 27) (by decide) h w d).trans ?_
  refine (last_3 x b c h w d).trans ?_
  -- 19 / 9 = 2, 19 / 3 % 3 = 0, 19 % 3 = 1
  show padded x b c (h.val + 2) (w.val + 0) (d.val + 1)
    = padded x b c (h.val + 19 / 9) (w.val + 19 / 3 % 3) (d.val + 19 % 3)
  rfl

theorem patch_20 (x : Vol) (b : Fin 2) (c : Fin 16) (h w d : Fin 48) :
    val_main_v57 (F := Ideal) x (ix6 b c (⟨20, by decide⟩ : Fin 27) h w d)
      = patches x (ix6 b c (⟨20, by decide⟩ : Fin 27) h w d) := by
  refine (joined_high x b c (⟨20, by decide⟩ : Fin 27) (by decide) h w d).trans ?_
  refine (last_4 x b c h w d).trans ?_
  -- 20 / 9 = 2, 20 / 3 % 3 = 0, 20 % 3 = 2
  show padded x b c (h.val + 2) (w.val + 0) (d.val + 2)
    = padded x b c (h.val + 20 / 9) (w.val + 20 / 3 % 3) (d.val + 20 % 3)
  rfl

theorem patch_21 (x : Vol) (b : Fin 2) (c : Fin 16) (h w d : Fin 48) :
    val_main_v57 (F := Ideal) x (ix6 b c (⟨21, by decide⟩ : Fin 27) h w d)
      = patches x (ix6 b c (⟨21, by decide⟩ : Fin 27) h w d) := by
  refine (joined_high x b c (⟨21, by decide⟩ : Fin 27) (by decide) h w d).trans ?_
  refine (last_5 x b c h w d).trans ?_
  -- 21 / 9 = 2, 21 / 3 % 3 = 1, 21 % 3 = 0
  show padded x b c (h.val + 2) (w.val + 1) (d.val + 0)
    = padded x b c (h.val + 21 / 9) (w.val + 21 / 3 % 3) (d.val + 21 % 3)
  rfl

theorem patch_22 (x : Vol) (b : Fin 2) (c : Fin 16) (h w d : Fin 48) :
    val_main_v57 (F := Ideal) x (ix6 b c (⟨22, by decide⟩ : Fin 27) h w d)
      = patches x (ix6 b c (⟨22, by decide⟩ : Fin 27) h w d) := by
  refine (joined_high x b c (⟨22, by decide⟩ : Fin 27) (by decide) h w d).trans ?_
  refine (last_6 x b c h w d).trans ?_
  -- 22 / 9 = 2, 22 / 3 % 3 = 1, 22 % 3 = 1
  show padded x b c (h.val + 2) (w.val + 1) (d.val + 1)
    = padded x b c (h.val + 22 / 9) (w.val + 22 / 3 % 3) (d.val + 22 % 3)
  rfl

theorem patch_23 (x : Vol) (b : Fin 2) (c : Fin 16) (h w d : Fin 48) :
    val_main_v57 (F := Ideal) x (ix6 b c (⟨23, by decide⟩ : Fin 27) h w d)
      = patches x (ix6 b c (⟨23, by decide⟩ : Fin 27) h w d) := by
  refine (joined_high x b c (⟨23, by decide⟩ : Fin 27) (by decide) h w d).trans ?_
  refine (last_7 x b c h w d).trans ?_
  -- 23 / 9 = 2, 23 / 3 % 3 = 1, 23 % 3 = 2
  show padded x b c (h.val + 2) (w.val + 1) (d.val + 2)
    = padded x b c (h.val + 23 / 9) (w.val + 23 / 3 % 3) (d.val + 23 % 3)
  rfl

theorem patch_24 (x : Vol) (b : Fin 2) (c : Fin 16) (h w d : Fin 48) :
    val_main_v57 (F := Ideal) x (ix6 b c (⟨24, by decide⟩ : Fin 27) h w d)
      = patches x (ix6 b c (⟨24, by decide⟩ : Fin 27) h w d) := by
  refine (joined_high x b c (⟨24, by decide⟩ : Fin 27) (by decide) h w d).trans ?_
  refine (last_8 x b c h w d).trans ?_
  -- 24 / 9 = 2, 24 / 3 % 3 = 2, 24 % 3 = 0
  show padded x b c (h.val + 2) (w.val + 2) (d.val + 0)
    = padded x b c (h.val + 24 / 9) (w.val + 24 / 3 % 3) (d.val + 24 % 3)
  rfl

theorem patch_25 (x : Vol) (b : Fin 2) (c : Fin 16) (h w d : Fin 48) :
    val_main_v57 (F := Ideal) x (ix6 b c (⟨25, by decide⟩ : Fin 27) h w d)
      = patches x (ix6 b c (⟨25, by decide⟩ : Fin 27) h w d) := by
  refine (joined_high x b c (⟨25, by decide⟩ : Fin 27) (by decide) h w d).trans ?_
  refine (last_9 x b c h w d).trans ?_
  -- 25 / 9 = 2, 25 / 3 % 3 = 2, 25 % 3 = 1
  show padded x b c (h.val + 2) (w.val + 2) (d.val + 1)
    = padded x b c (h.val + 25 / 9) (w.val + 25 / 3 % 3) (d.val + 25 % 3)
  rfl

theorem patch_26 (x : Vol) (b : Fin 2) (c : Fin 16) (h w d : Fin 48) :
    val_main_v57 (F := Ideal) x (ix6 b c (⟨26, by decide⟩ : Fin 27) h w d)
      = patches x (ix6 b c (⟨26, by decide⟩ : Fin 27) h w d) := by
  refine (joined_high x b c (⟨26, by decide⟩ : Fin 27) (by decide) h w d).trans ?_
  refine (last_10 x b c h w d).trans ?_
  -- 26 / 9 = 2, 26 / 3 % 3 = 2, 26 % 3 = 2
  show padded x b c (h.val + 2) (w.val + 2) (d.val + 2)
    = padded x b c (h.val + 26 / 9) (w.val + 26 / 3 % 3) (d.val + 26 % 3)
  rfl

/-! ## The whole -/

/-- The joined array of the 27 copies is the specification's array of patches. -/
theorem patches_eq (x : Vol) : val_main_v57 (F := Ideal) x = patches x := by
  funext i
  obtain ⟨b, c, k, h, w, d, rfl⟩ : ∃ (b : Fin 2) (c : Fin 16) (k : Fin 27) (h w d : Fin 48), i = ix6 b c k h w d :=
    ⟨i 0, i 1, i 2, i 3, i 4, i 5, eq_ix6 i⟩
  match k with
  | ⟨0, _⟩ => exact patch_0 x b c h w d
  | ⟨1, _⟩ => exact patch_1 x b c h w d
  | ⟨2, _⟩ => exact patch_2 x b c h w d
  | ⟨3, _⟩ => exact patch_3 x b c h w d
  | ⟨4, _⟩ => exact patch_4 x b c h w d
  | ⟨5, _⟩ => exact patch_5 x b c h w d
  | ⟨6, _⟩ => exact patch_6 x b c h w d
  | ⟨7, _⟩ => exact patch_7 x b c h w d
  | ⟨8, _⟩ => exact patch_8 x b c h w d
  | ⟨9, _⟩ => exact patch_9 x b c h w d
  | ⟨10, _⟩ => exact patch_10 x b c h w d
  | ⟨11, _⟩ => exact patch_11 x b c h w d
  | ⟨12, _⟩ => exact patch_12 x b c h w d
  | ⟨13, _⟩ => exact patch_13 x b c h w d
  | ⟨14, _⟩ => exact patch_14 x b c h w d
  | ⟨15, _⟩ => exact patch_15 x b c h w d
  | ⟨16, _⟩ => exact patch_16 x b c h w d
  | ⟨17, _⟩ => exact patch_17 x b c h w d
  | ⟨18, _⟩ => exact patch_18 x b c h w d
  | ⟨19, _⟩ => exact patch_19 x b c h w d
  | ⟨20, _⟩ => exact patch_20 x b c h w d
  | ⟨21, _⟩ => exact patch_21 x b c h w d
  | ⟨22, _⟩ => exact patch_22 x b c h w d
  | ⟨23, _⟩ => exact patch_23 x b c h w d
  | ⟨24, _⟩ => exact patch_24 x b c h w d
  | ⟨25, _⟩ => exact patch_25 x b c h w d
  | ⟨26, _⟩ => exact patch_26 x b c h w d
  | ⟨n + 27, hn⟩ => exact absurd hn (by omega)

/-- The reference's result is the specification's: the same flattening of the same patches. -/
theorem reference_unfolded (x : Vol) : val_main_v58 (F := Ideal) x = unfolded x := by
  unfold val_main_v58 unfolded
  rw [patches_eq]

end Cert.UnfoldRef

end
-- ==== Proof.UnfoldTile.lean ====
/-
  One stored tile of the unfold, read at an index.

  Every one of the 27 tiles the body stores has the same form: rows i … i + 47 of the 50-row padded slab rotated along
  its 2304 lanes, times a 0/1 lane mask laid down the rows. Read at (h, n) that is the rotated slab at (i + h, n) times
  the mask at lane n; the rotation by s reads the slab at lane (n + 2304 − s) mod 2304; and the padded slab is 0 in rows
  0 and 49 and the input block's row r − 1 in row r. Where the mask is 1 the rotated lane n + 48·j + l − 49 does not
  wrap, so the product is the block's entry at row h + i − 1, lane 48·(n/48 + j − 1) + (n%48 + l − 1); where the mask
  is 0 the product is 0 whatever the slab holds there (x · 0 = 0 on every extended real).
-/
import Idealize.ShloMosaic.PureOps.Ideal
import Idealize.ShloMosaic.Lib.ValueIdx
import Idealize.ShloMosaic.Lib.Pipeline.Value
import Idealize.ShloMosaic.Lib.KernelVsHost

noncomputable section

namespace Cert.UnfoldTile

open Idealize.ShloMosaic Idealize.ShloMosaic.ValueIdx

abbrev SSlab : Shape := ⟨2, ![50, 2304]⟩
abbrev SRows : Shape := ⟨2, ![48, 2304]⟩
abbrev SLane : Shape := ⟨2, ![1, 2304]⟩
abbrev STile : Shape := ⟨5, ![1, 1, 1, 48, 2304]⟩
abbrev SBlock : Shape := ⟨4, ![1, 1, 48, 2304]⟩

/-- A stored tile at (h, n): the slab's row i + h at lane n, times the mask at lane n. -/
theorem tile_apply (slab : FVec Ideal SSlab .f32) (mask : FVec Ideal SLane .f32) (i : Nat) (hi : i + 48 ≤ 50)
    (hs : SSlab.Slices ![i, 0] SRows) (hb : SLane.Broadcasts SRows) (hc : SRows.ShapeCasts STile)
    (h : Fin 48) (n : Fin 2304) :
    shapeCast STile (mulf (extractStridedSlice SRows ![i, 0] slab hs) (broadcastTo SRows mask hb)) hc
        (ix5 (0 : Fin 1) (0 : Fin 1) (0 : Fin 1) h n)
      = slab (ix2 (⟨i + h.val, by omega⟩ : Fin 50) n) * mask (ix2 (0 : Fin 1) n) := by
  refine (shapeCast_apply _ hc (ix5 (0 : Fin 1) (0 : Fin 1) (0 : Fin 1) h n) (ix2 h n) ?_).trans ?_
  · rw [Shape.rowMajor_val_two, Shape.rowMajor_val_five]
    show h.val * 2304 + n.val = (((0 * 1 + 0) * 1 + 0) * 48 + h.val) * 2304 + n.val
    omega
  · show extractStridedSlice SRows ![i, 0] slab hs (ix2 h n) * broadcastTo SRows mask hb (ix2 h n) = _
    congr 1
    · exact extractStridedSlice_apply ![i, 0] slab hs (ix2 h n) (ix2 (⟨i + h.val, by omega⟩ : Fin 50) n) (fun a =>
        match a with
        | ⟨0, _⟩ => rfl
        | ⟨1, _⟩ => by show n.val = 0 + n.val; omega)
    · exact broadcastTo_apply mask hb (ix2 h n) (ix2 (0 : Fin 1) n) (fun a =>
        match a with
        | ⟨0, _⟩ => by show (0 : Nat) = if (1 : Nat) = 1 then 0 else _; rw [if_pos rfl]
        | ⟨1, _⟩ => by show n.val = if (2304 : Nat) = 1 then 0 else n.val; rw [if_neg (by decide)])

/-- The slab rotated by s along its lanes, at (r, n): the slab at lane (n + 2304 − s mod 2304) mod 2304. -/
theorem rotate_apply (slab : SSlab.Idx → EReal) (sb : BitVec 32) (hr : SSlab.Rotates 1 none) (r : Fin 50) (n : Fin 2304) :
    dynamicRotate 1 sb none slab hr (ix2 r n)
      = slab (ix2 r (⟨(n.val + 2304 - sb.toNat % 2304) % 2304, Nat.mod_lt _ (by decide)⟩ : Fin 2304)) :=
  dynamicRotate_apply (1 : Fin 2) sb slab hr (ix2 r n)
    (ix2 r (⟨(n.val + 2304 - sb.toNat % 2304) % 2304, Nat.mod_lt _ (by decide)⟩ : Fin 2304)) (fun b =>
    match b with
    | ⟨0, _⟩ => rfl
    | ⟨1, _⟩ => rfl)

/-- The padded slab of an input block: zero rows 0 and 49 around the block's 48 rows. -/
def slabOf (xb : SBlock.Idx → EReal) : SSlab.Idx → EReal := fun y =>
  if h : 1 ≤ (y 0).val ∧ (y 0).val ≤ 48 then
    xb (ix4 (0 : Fin 1) (0 : Fin 1) (⟨(y 0).val - 1, by omega⟩ : Fin 48) (y 1))
  else 0

/-- The padded slab at (r, n): the block's row r − 1 for 1 ≤ r ≤ 48, zero in rows 0 and 49. -/
theorem slabOf_apply (xb : SBlock.Idx → EReal) (r : Fin 50) (n : Fin 2304) :
    slabOf xb (ix2 r n)
      = if h : 1 ≤ r.val ∧ r.val ≤ 48 then xb (ix4 (0 : Fin 1) (0 : Fin 1) (⟨r.val - 1, by omega⟩ : Fin 48) n) else 0 := rfl

/-- The tile for offsets (i, j, l) of an input block, at (h, n): the block at row h + i − 1 and lane
    48·(n/48 + j − 1) + (n%48 + l − 1) when the three padded coordinates lie in 1 … 48, and 0 otherwise. -/
def tileOf (xb : SBlock.Idx → EReal) (i j l : Nat) (h : Fin 48) (n : Fin 2304) : EReal :=
  if hc : (1 ≤ h.val + i ∧ h.val + i ≤ 48) ∧ (1 ≤ n.val / 48 + j ∧ n.val / 48 + j ≤ 48)
      ∧ (1 ≤ n.val % 48 + l ∧ n.val % 48 + l ≤ 48) then
    xb (ix4 (0 : Fin 1) (0 : Fin 1) (⟨h.val + i - 1, by omega⟩ : Fin 48)
      (⟨48 * (n.val / 48 + j - 1) + (n.val % 48 + l - 1), by omega⟩ : Fin 2304))
  else 0

/-- Shift, mask and padding together: with the rotation amount s = (2304 + 49 − (48·j + l)) mod 2304 of offsets
    j, l ≤ 2 and a mask that is 1 exactly on the lanes whose two padded coordinates lie in 1 … 48, the masked rotated
    slab at (i + h, n) is the tile. -/
theorem masked_rotated (xb : SBlock.Idx → EReal) (i j l s : Nat) (hi : i + 48 ≤ 50) (hj : j ≤ 2) (hl : l ≤ 2)
    (hs : s = (2304 + 49 - (48 * j + l)) % 2304) (m : EReal) (h : Fin 48) (n : Fin 2304)
    (hm : m = if (1 ≤ n.val / 48 + j ∧ n.val / 48 + j ≤ 48) ∧ (1 ≤ n.val % 48 + l ∧ n.val % 48 + l ≤ 48) then 1 else 0) :
    slabOf xb (ix2 (⟨i + h.val, by omega⟩ : Fin 50) (⟨(n.val + 2304 - s % 2304) % 2304, Nat.mod_lt _ (by decide)⟩ : Fin 2304)) * m
      = tileOf xb i j l h n := by
  have hn := n.isLt
  have hh := h.isLt
  unfold tileOf
  rw [slabOf_apply]
  by_cases hC : (1 ≤ n.val / 48 + j ∧ n.val / 48 + j ≤ 48) ∧ (1 ≤ n.val % 48 + l ∧ n.val % 48 + l ≤ 48)
  · rw [hm, if_pos hC, mul_one]
    by_cases hR : 1 ≤ h.val + i ∧ h.val + i ≤ 48
    · have hR' : 1 ≤ i + h.val ∧ i + h.val ≤ 48 := by omega
      rw [dif_pos hR', dif_pos ⟨hR, hC⟩]
      refine congrArg xb (funext fun a => ?_)
      match a with
      | ⟨0, _⟩ => rfl
      | ⟨1, _⟩ => rfl
      | ⟨2, _⟩ => exact Fin.ext (by show i + h.val - 1 = h.val + i - 1; omega)
      | ⟨3, _⟩ =>
        refine Fin.ext ?_
        show (n.val + 2304 - s % 2304) % 2304 = 48 * (n.val / 48 + j - 1) + (n.val % 48 + l - 1)
        subst hs
        omega
    · have hR' : ¬(1 ≤ i + h.val ∧ i + h.val ≤ 48) := by omega
      rw [dif_neg hR', dif_neg (fun hc => hR hc.1)]
  · rw [hm, if_neg hC, mul_zero, dif_neg (fun hc => hC hc.2)]

/-- A stored tile of the padded slab of an input block, for offsets (i, j, l): rows i … i + 47 of the slab rotated by
    the offsets' amount, times the offsets' lane mask, read at (h, n), is the tile. -/
theorem tile_value (xb : SBlock.Idx → EReal) (mask : FVec Ideal SLane .f32) (i j l : Nat) (sb : BitVec 32)
    (hi : i + 48 ≤ 50) (hj : j ≤ 2) (hl : l ≤ 2) (hsb : sb.toNat = (2304 + 49 - (48 * j + l)) % 2304)
    (hmask : ∀ n : Fin 2304, mask (ix2 (0 : Fin 1) n)
      = if (1 ≤ n.val / 48 + j ∧ n.val / 48 + j ≤ 48) ∧ (1 ≤ n.val % 48 + l ∧ n.val % 48 + l ≤ 48) then 1 else 0)
    (hr : SSlab.Rotates 1 none) (hs : SSlab.Slices ![i, 0] SRows) (hb : SLane.Broadcasts SRows)
    (hc : SRows.ShapeCasts STile) (h : Fin 48) (n : Fin 2304) :
    shapeCast STile
        (mulf (extractStridedSlice SRows ![i, 0] (dynamicRotate 1 sb none (slabOf xb) hr : FVec Ideal SSlab .f32) hs)
          (broadcastTo SRows mask hb)) hc
        (ix5 (0 : Fin 1) (0 : Fin 1) (0 : Fin 1) h n)
      = tileOf xb i j l h n := by
  rw [tile_apply _ mask i hi hs hb hc h n, rotate_apply (slabOf xb) sb hr _ n]
  exact masked_rotated xb i j l sb.toNat hi hj hl hsb _ h n (hmask n)

/-- What one grid point leaves in its output block [1, 1, 27, 48, 2304]: tile k = 9·i + 3·j + l at (h, n). -/
def blockOf (xb : SBlock.Idx → EReal) : (⟨5, ![1, 1, 27, 48, 2304]⟩ : Shape).Idx → EReal := fun y =>
  tileOf xb ((y 2).val / 9) ((y 2).val / 3 % 3) ((y 2).val % 3) (y 3) (y 4)

/-- The block at the index the k-th tile's rectangle gives the tile's local index (0, 0, 0, h, n). -/
theorem blockOf_emb (xb : SBlock.Idx → EReal) (k : Nat)
    (inb : ∀ a, (![0, 0, k, 0, 0] : Fin 5 → Nat) a + (![1, 1, 1, 48, 2304] : Fin 5 → Nat) a
      ≤ (⟨5, ![1, 1, 27, 48, 2304]⟩ : Shape).size a)
    (h : Fin 48) (n : Fin 2304) :
    blockOf xb ((Rect.unit (s := (⟨5, ![1, 1, 27, 48, 2304]⟩ : Shape)) ![0, 0, k, 0, 0] ![1, 1, 1, 48, 2304] inb).emb
        (ix5 (0 : Fin 1) (0 : Fin 1) (0 : Fin 1) h n))
      = tileOf xb (k / 9) (k / 3 % 3) (k % 3) h n := by
  unfold blockOf
  have e2 : (((Rect.unit (s := (⟨5, ![1, 1, 27, 48, 2304]⟩ : Shape)) ![0, 0, k, 0, 0] ![1, 1, 1, 48, 2304] inb).emb
      (ix5 (0 : Fin 1) (0 : Fin 1) (0 : Fin 1) h n)) 2).val = k := by
    show k + 1 * 0 = k; omega
  have e3 : ((Rect.unit (s := (⟨5, ![1, 1, 27, 48, 2304]⟩ : Shape)) ![0, 0, k, 0, 0] ![1, 1, 1, 48, 2304] inb).emb
      (ix5 (0 : Fin 1) (0 : Fin 1) (0 : Fin 1) h n)) 3 = h := Fin.ext (by show 0 + 1 * h.val = h.val; omega)
  have e4 : ((Rect.unit (s := (⟨5, ![1, 1, 27, 48, 2304]⟩ : Shape)) ![0, 0, k, 0, 0] ![1, 1, 1, 48, 2304] inb).emb
      (ix5 (0 : Fin 1) (0 : Fin 1) (0 : Fin 1) h n)) 4 = n := Fin.ext (by show 0 + 1 * n.val = n.val; omega)
  rw [e2, e3, e4]

end Cert.UnfoldTile

end
-- ==== Proof.UnfoldJoin.lean ====
/-
  A tile of an input block is the padded volume.

  When the block is rows of the volume with the two last spatial axes merged — entry (r, n') of the block is the volume at
  (b, c, r, n' / 48, n' % 48) — the tile for offsets (i, j, l) at (h, n) is the padded volume at padded coordinates
  (h + i, n/48 + j, n%48 + l): the two conditions are the same three ranges, and inside them lane
  48·(n/48 + j − 1) + (n%48 + l − 1) splits back into (n/48 + j − 1, n%48 + l − 1).
-/
import proofs.«121408_j2757369004156_2_alg».proof.Proof.UnfoldSpec
import proofs.«121408_j2757369004156_2_alg».proof.Proof.UnfoldTile

noncomputable section

namespace Cert.UnfoldJoin

open Idealize.ShloMosaic Idealize.ShloMosaic.ValueIdx Cert.UnfoldSpec Cert.UnfoldTile

theorem tileOf_eq_padded (x : SVol.Idx → EReal) (xb : SBlock.Idx → EReal) (b : Fin 2) (c : Fin 16)
    (hxb : ∀ (r : Fin 48) (n' : Fin 2304), xb (ix4 (0 : Fin 1) (0 : Fin 1) r n')
      = x (ix5 b c r (⟨n'.val / 48, by have := n'.isLt; omega⟩ : Fin 48) (⟨n'.val % 48, by omega⟩ : Fin 48)))
    (i j l : Nat) (h : Fin 48) (n : Fin 2304) :
    tileOf xb i j l h n = padded x b c (h.val + i) (n.val / 48 + j) (n.val % 48 + l) := by
  unfold tileOf padded
  by_cases hc : (1 ≤ h.val + i ∧ h.val + i ≤ 48) ∧ (1 ≤ n.val / 48 + j ∧ n.val / 48 + j ≤ 48)
      ∧ (1 ≤ n.val % 48 + l ∧ n.val % 48 + l ≤ 48)
  · rw [dif_pos hc, dif_pos hc, hxb]
    refine congrArg x (funext fun a => ?_)
    match a with
    | ⟨0, _⟩ => rfl
    | ⟨1, _⟩ => rfl
    | ⟨2, _⟩ => rfl
    | ⟨3, _⟩ =>
      exact Fin.ext (by
        show (48 * (n.val / 48 + j - 1) + (n.val % 48 + l - 1)) / 48 = n.val / 48 + j - 1
        omega)
    | ⟨4, _⟩ =>
      exact Fin.ext (by
        show (48 * (n.val / 48 + j - 1) + (n.val % 48 + l - 1)) % 48 = n.val % 48 + l - 1
        omega)
  · rw [dif_neg hc, dif_neg hc]

end Cert.UnfoldJoin

end
-- ==== Proof.UnfoldMask.lean ====
/-
  The nine lane masks of the unfold.

  Lane n of the merged (W, D) axis is the pair (w, d) = (n / 48, n % 48). The body computes w by a signed division of
  the lane number by 48 with the floor correction, d as n − 48·w, and for offsets j, l ∈ {0, 1, 2} the condition
  0 ≤ w + j − 1 < 48 ∧ 0 ≤ d + l − 1 < 48 as one bit, widened to a word and converted to a float. On the 2304 lanes
  every quantity is far from the 32-bit wrap, so the bit is 1 exactly when the padded coordinates n/48 + j and
  n%48 + l both lie in 1 … 48: checked lane by lane on the words, then converted (the bit 1 converts to 1, the bit 0 to 0).
-/
import proofs.«121408_j2757369004156_2_alg».proof.Proof.Gen.KernelIdeal.Skeleton
import Idealize.ShloMosaic.Lib.ValueIdx
import Idealize.ShloMosaic.Lib.Pipeline.Value
import Idealize.ShloMosaic.Lib.KernelVsHost

noncomputable section

namespace Cert.UnfoldMask

open Idealize.ShloMosaic Idealize.ShloMosaic.ValueIdx Cert.KernelIdeal Cert.KernelIdeal.Gen

/-- The lane numbers 0 … 2303 as 32-bit words. -/
abbrev laneIota : IVec S1x2304 32 := iota .tc S1x2304 32 [1] Facts₀.iota_S1x2304_d1_w32
/-- Each lane's w = ⌊n / 48⌋, as the body computes it. -/
abbrev laneW : IVec S1x2304 32 := k0_pay9 k0_pay6 k0_pay7 k0_pay8
/-- Each lane's d = n − 48·w. -/
abbrev laneD : IVec S1x2304 32 := k0_pay10 laneIota k0_pay6 k0_pay7 k0_pay8
/-- The bit 0 ≤ w + j − 1 < 48, for j = 0, 1, 2. -/
abbrev laneWOk0 : IVec S1x2304 1 := k0_pay11 k0_pay6 k0_pay7 k0_pay8
abbrev laneWOk1 : IVec S1x2304 1 := k0_pay30 laneW
abbrev laneWOk2 : IVec S1x2304 1 := k0_pay49 laneW

/-- The lane numbers read at lane n. -/
theorem iota_lane (n : Fin 2304) : laneIota (ix2 (0 : Fin 1) n) = BitVec.ofNat 32 n.val :=
  iota_single_apply .tc S1x2304 32 1 Facts₀.iota_S1x2304_d1_w32 (ix2 (0 : Fin 1) n)

/-- A one-bit word widened to 32 bits and converted signed: 1 for the bit 1, 0 for the bit 0. -/
theorem sitofp_bit (B : BitVec 1) (C : Prop) [Decidable C] (h : B = if C then 1#1 else 0#1) :
    (FloatOps.sitofp .f32 (BitVec.setWidth 32 B) : Ideal .f32) = if C then 1 else 0 := by
  by_cases hC : C
  · rw [if_pos hC] at h ⊢
    subst h
    show ((((BitVec.setWidth 32 1#1).toInt : ℤ) : ℝ) : EReal) = 1
    norm_num
  · rw [if_neg hC] at h ⊢
    subst h
    exact sitofp_zero

/-- The condition on lane n for offsets j, l: both padded coordinates in 1 … 48. -/
abbrev laneOk (j l : Nat) (n : Fin 2304) : Prop :=
  (1 ≤ n.val / 48 + j ∧ n.val / 48 + j ≤ 48) ∧ (1 ≤ n.val % 48 + l ∧ n.val % 48 + l ≤ 48)

/-- The mask for offsets j = 0, l = 0 at lane n. -/
theorem mask00_lane (n : Fin 2304) :
    (k0_pay12 (F := Ideal) laneIota k0_pay6 k0_pay7 k0_pay8) (ix2 (0 : Fin 1) n) = if laneOk 0 0 n then 1 else 0 := by
  unfold k0_pay12 k0_pay11 k0_pay10 k0_pay9 k0_pay6 k0_pay7 k0_pay8
  dsimp only [sitofp, extui, select, subi, addi, muli, divsi, remsi, cmpi, andi, broadcast]
  rw [iota_lane]
  refine sitofp_bit _ _ ?_
  revert n
  decide +kernel

/-- The mask for offsets j = 0, l = 1 at lane n. -/
theorem mask01_lane (n : Fin 2304) :
    (k0_pay18 (F := Ideal) laneD laneWOk0) (ix2 (0 : Fin 1) n) = if laneOk 0 1 n then 1 else 0 := by
  unfold k0_pay18 laneWOk0 laneD k0_pay11 k0_pay10 k0_pay9 k0_pay6 k0_pay7 k0_pay8
  dsimp only [sitofp, extui, select, subi, addi, muli, divsi, remsi, cmpi, andi, broadcast]
  rw [iota_lane]
  refine sitofp_bit _ _ ?_
  revert n
  decide +kernel

/-- The mask for offsets j = 0, l = 2 at lane n. -/
theorem mask02_lane (n : Fin 2304) :
    (k0_pay23 (F := Ideal) laneD laneWOk0) (ix2 (0 : Fin 1) n) = if laneOk 0 2 n then 1 else 0 := by
  unfold k0_pay23 laneWOk0 laneD k0_pay11 k0_pay10 k0_pay9 k0_pay6 k0_pay7 k0_pay8
  dsimp only [sitofp, extui, select, subi, addi, muli, divsi, remsi, cmpi, andi, broadcast]
  rw [iota_lane]
  refine sitofp_bit _ _ ?_
  revert n
  decide +kernel

/-- The mask for offsets j = 1, l = 0 at lane n. -/
theorem mask10_lane (n : Fin 2304) :
    (k0_pay31 (F := Ideal) laneW laneD) (ix2 (0 : Fin 1) n) = if laneOk 1 0 n then 1 else 0 := by
  unfold k0_pay31 k0_pay30 laneW laneD k0_pay10 k0_pay9 k0_pay6 k0_pay7 k0_pay8
  dsimp only [sitofp, extui, select, subi, addi, muli, divsi, remsi, cmpi, andi, broadcast]
  rw [iota_lane]
  refine sitofp_bit _ _ ?_
  revert n
  decide +kernel

/-- The mask for offsets j = 1, l = 1 at lane n. -/
theorem mask11_lane (n : Fin 2304) :
    (k0_pay37 (F := Ideal) laneD laneWOk1) (ix2 (0 : Fin 1) n) = if laneOk 1 1 n then 1 else 0 := by
  unfold k0_pay37 laneWOk1 k0_pay30 laneW laneD k0_pay10 k0_pay9 k0_pay6 k0_pay7 k0_pay8
  dsimp only [sitofp, extui, select, subi, addi, muli, divsi, remsi, cmpi, andi, broadcast]
  rw [iota_lane]
  refine sitofp_bit _ _ ?_
  revert n
  decide +kernel

/-- The mask for offsets j = 1, l = 2 at lane n. -/
theorem mask12_lane (n : Fin 2304) :
    (k0_pay43 (F := Ideal) laneD laneWOk1) (ix2 (0 : Fin 1) n) = if laneOk 1 2 n then 1 else 0 := by
  unfold k0_pay43 laneWOk1 k0_pay30 laneW laneD k0_pay10 k0_pay9 k0_pay6 k0_pay7 k0_pay8
  dsimp only [sitofp, extui, select, subi, addi, muli, divsi, remsi, cmpi, andi, broadcast]
  rw [iota_lane]
  refine sitofp_bit _ _ ?_
  revert n
  decide +kernel

/-- The mask for offsets j = 2, l = 0 at lane n. -/
theorem mask20_lane (n : Fin 2304) :
    (k0_pay50 (F := Ideal) laneW laneD) (ix2 (0 : Fin 1) n) = if laneOk 2 0 n then 1 else 0 := by
  unfold k0_pay50 k0_pay49 laneW laneD k0_pay10 k0_pay9 k0_pay6 k0_pay7 k0_pay8
  dsimp only [sitofp, extui, select, subi, addi, muli, divsi, remsi, cmpi, andi, broadcast]
  rw [iota_lane]
  refine sitofp_bit _ _ ?_
  revert n
  decide +kernel

/-- The mask for offsets j = 2, l = 1 at lane n. -/
theorem mask21_lane (n : Fin 2304) :
    (k0_pay55 (F := Ideal) laneD laneWOk2) (ix2 (0 : Fin 1) n) = if laneOk 2 1 n then 1 else 0 := by
  unfold k0_pay55 laneWOk2 k0_pay49 laneW laneD k0_pay10 k0_pay9 k0_pay6 k0_pay7 k0_pay8
  dsimp only [sitofp, extui, select, subi, addi, muli, divsi, remsi, cmpi, andi, broadcast]
  rw [iota_lane]
  refine sitofp_bit _ _ ?_
  revert n
  decide +kernel

/-- The mask for offsets j = 2, l = 2 at lane n. -/
theorem mask22_lane (n : Fin 2304) :
    (k0_pay61 (F := Ideal) laneD laneWOk2) (ix2 (0 : Fin 1) n) = if laneOk 2 2 n then 1 else 0 := by
  unfold k0_pay61 laneWOk2 k0_pay49 laneW laneD k0_pay10 k0_pay9 k0_pay6 k0_pay7 k0_pay8
  dsimp only [sitofp, extui, select, subi, addi, muli, divsi, remsi, cmpi, andi, broadcast]
  rw [iota_lane]
  refine sitofp_bit _ _ ?_
  revert n
  decide +kernel

end Cert.UnfoldMask

end
-- ==== Proof.UnfoldBody.lean ====
/-
  What the body leaves in its output block: the 27 tiles of the input block.

  At a grid point the body writes the input block into rows 1 … 48 of a 50-row scratch slab whose rows 0 and 49 it
  zeroes, reads the slab back whole, and for each lane offset (j, l) rotates it along the lanes and stores, for each row
  offset i, rows i … i + 47 times the offsets' lane mask as tile 9·i + 3·j + l of the output block. The slab read back
  is the padded slab of the block (`slab_eq`: three stores that tile the slab, each a block of one function); each stored
  payload is a block of `blockOf` of the input block (`tile_value`, one store at a time); the 27 stores tile the output
  block; so the block ends at `blockOf` of the input block (`out_eq`).
-/
import proofs.«121408_j2757369004156_2_alg».proof.Proof.Gen.KernelIdeal.Frame
import proofs.«121408_j2757369004156_2_alg».proof.Proof.UnfoldTile
import proofs.«121408_j2757369004156_2_alg».proof.Proof.UnfoldMask
import Idealize.ShloMosaic.Lib.Pipeline.Value
import Idealize.ShloMosaic.Lib.ValueIdx
import Idealize.ShloMosaic.Lib.Tactic
import Idealize.ShloMosaic.PureOps.Ideal.Laws

set_option maxRecDepth 16384

noncomputable section

namespace Cert.UnfoldBody

open Idealize.ShloMosaic Idealize.ShloMosaic.TcCoe Idealize.ShloMosaic.ValueIdx Idealize.ShloMosaic.Tactic Idealize.SL.Sem
open Cert.KernelIdeal Cert.KernelIdeal.Gen Cert.UnfoldTile Cert.UnfoldMask

theorem hz2 : (![0, 0] : Fin 2 → Nat) = fun _ => 0 := funext fun a => by fin_cases a <;> rfl
theorem hz4 : (![0, 0, 0, 0] : Fin 4 → Nat) = fun _ => 0 := funext fun a => by fin_cases a <;> rfl

/-- A local index of a tile's rectangle is (0, 0, 0, h, n): its three leading axes have extent one. -/
theorem tile_idx (x : (⟨5, ![1, 1, 1, 48, 2304]⟩ : Shape).Idx) :
    x = ix5 (0 : Fin 1) (0 : Fin 1) (0 : Fin 1) (x 3) (x 4) := by
  funext a
  match a with
  | ⟨0, _⟩ => exact Fin.ext (Nat.lt_one_iff.mp (x 0).isLt)
  | ⟨1, _⟩ => exact Fin.ext (Nat.lt_one_iff.mp (x 1).isLt)
  | ⟨2, _⟩ => exact Fin.ext (Nat.lt_one_iff.mp (x 2).isLt)
  | ⟨3, _⟩ => rfl
  | ⟨4, _⟩ => rfl

/-- The input block as the body's first load reads it. -/
theorem load_block (arg2 : Memref sig .tc .vmem S1x1x48x2304 .f32) (harg2 : arg2.IsWhole) (x0 : Vec Ideal S1x1x48x2304 .f32) :
    View.readAt (Elt Ideal) arg2.view
        (Rect.unit ![0, 0, 0, 0] S1x1x48x2304.size inb_S1x1x48x2304_S1x1x48x2304_0_0_0_0).toLoadRect (harg2.unread x0)
      = x0 := by
  rw [View.readAt_eq_ld, harg2.read_unread, View.ld_unit_zero (S := S1x1x48x2304) hz4]

/-- The scratch slab read back after the body's three stores into it is the padded slab of the input block. -/
theorem slab_eq (arg2 : Memref sig .tc .vmem S1x1x48x2304 .f32) (harg2 : arg2.IsWhole)
    (arg4 : Memref sig .tc .vmem S50x2304 .f32) (x0 : Vec Ideal S1x1x48x2304 .f32) :
    View.readCov (Val := Elt Ideal) arg4.view
        [⟨Rect.unit ![1, 0] S48x2304.size inb_S50x2304_S48x2304_1_0,
            k0_pay5 (F := Ideal) (View.readAt (Elt Ideal) arg2.view
              (Rect.unit ![0, 0, 0, 0] S1x1x48x2304.size inb_S1x1x48x2304_S1x1x48x2304_0_0_0_0).toLoadRect (harg2.unread x0))⟩,
          ⟨Rect.unit ![49, 0] S1x2304.size inb_S50x2304_S1x2304_49_0, k0_pay4 (F := Ideal)⟩,
          ⟨Rect.unit ![0, 0] S1x2304.size inb_S50x2304_S1x2304_0_0, k0_pay3 (F := Ideal)⟩]
        (Rect.unit ![0, 0] S50x2304.size inb_S50x2304_S50x2304_0_0).toLoadRect
      = slabOf x0 := by
  rw [View.readCov_eq_canon', load_block]
  refine funext fun (y : SSlab.Idx) => ?_
  obtain ⟨r, n, rfl⟩ : ∃ (r : Fin 50) (n : Fin 2304), y = ix2 r n := ⟨y 0, y 1, eq_ix2 y⟩
  have hidx : (Rect.unit ![0, 0] S50x2304.size inb_S50x2304_S50x2304_0_0).toLoadRect.idx (ix2 r n) = ix2 r n :=
    funext fun a => Fin.ext (by
      match a with
      | ⟨0, _⟩ => show 0 + 1 * r.val = r.val; omega
      | ⟨1, _⟩ => show 0 + 1 * n.val = n.val; omega)
  show View.canon (Val := Elt Ideal) (s := S50x2304) (e := .f32) _
    ((Rect.unit ![0, 0] S50x2304.size inb_S50x2304_S50x2304_0_0).toLoadRect.idx (ix2 r n)) = slabOf x0 (ix2 r n)
  rw [hidx]
  have hr := r.isLt
  refine View.canon_apply_of_pieces (Val := Elt Ideal) (S := S50x2304) (e := .f32) (slabOf x0) _ ?_ (ix2 r n) ?_
  · -- each of the three stores is a block of the padded slab
    refine List.forall_mem_cons.2 ⟨?_, List.forall_mem_cons.2 ⟨?_, List.forall_mem_cons.2 ⟨?_, fun _ h => absurd h List.not_mem_nil⟩⟩⟩
    · intro (x : SRows.Idx)
      obtain ⟨h, l, rfl⟩ : ∃ (h : Fin 48) (l : Fin 2304), x = ix2 h l := ⟨x 0, x 1, eq_ix2 x⟩
      have hh := h.isLt
      have e : (Rect.unit (s := S50x2304) ![1, 0] S48x2304.size inb_S50x2304_S48x2304_1_0).emb (ix2 h l)
          = ix2 (⟨1 + h.val, by omega⟩ : Fin 50) l :=
        funext fun a => Fin.ext (by
          match a with
          | ⟨0, _⟩ => show 1 + 1 * h.val = 1 + h.val; omega
          | ⟨1, _⟩ => show 0 + 1 * l.val = l.val; omega)
      show k0_pay5 (F := Ideal) x0 (ix2 h l) = slabOf x0 ((Rect.unit (s := S50x2304) ![1, 0] S48x2304.size inb_S50x2304_S48x2304_1_0).emb (ix2 h l))
      rw [e, slabOf_apply, dif_pos (by show 1 ≤ 1 + h.val ∧ 1 + h.val ≤ 48; omega)]
      unfold k0_pay5
      rw [shapeCast_self]
      refine (shapeCast_apply x0 _ (ix2 h l) (ix4 (0 : Fin 1) (0 : Fin 1) h l) ?_).trans ?_
      · rw [Shape.rowMajor_val_four, Shape.rowMajor_val_two]
        show ((0 * 1 + 0) * 48 + h.val) * 2304 + l.val = h.val * 2304 + l.val
        omega
      · exact congrArg x0 (funext fun a => by
          match a with
          | ⟨0, _⟩ => rfl
          | ⟨1, _⟩ => rfl
          | ⟨2, _⟩ => exact Fin.ext (by show h.val = 1 + h.val - 1; omega)
          | ⟨3, _⟩ => rfl)
    · intro (x : SLane.Idx)
      obtain ⟨h, l, rfl⟩ : ∃ (h : Fin 1) (l : Fin 2304), x = ix2 h l := ⟨x 0, x 1, eq_ix2 x⟩
      have hh : h.val = 0 := by have := h.isLt; omega
      have e : (Rect.unit (s := S50x2304) ![49, 0] S1x2304.size inb_S50x2304_S1x2304_49_0).emb (ix2 h l)
          = ix2 (⟨49, by decide⟩ : Fin 50) l :=
        funext fun a => Fin.ext (by
          match a with
          | ⟨0, _⟩ => show 49 + 1 * h.val = 49; omega
          | ⟨1, _⟩ => show 0 + 1 * l.val = l.val; omega)
      show k0_pay4 (F := Ideal) (ix2 h l) = slabOf x0 ((Rect.unit (s := S50x2304) ![49, 0] S1x2304.size inb_S50x2304_S1x2304_49_0).emb (ix2 h l))
      rw [e, slabOf_apply, dif_neg (by show ¬(1 ≤ 49 ∧ 49 ≤ 48); omega)]
      unfold k0_pay4
      rw [shapeCast_self]
      exact Ideal.ofBits_zero_f32
    · intro (x : SLane.Idx)
      obtain ⟨h, l, rfl⟩ : ∃ (h : Fin 1) (l : Fin 2304), x = ix2 h l := ⟨x 0, x 1, eq_ix2 x⟩
      have hh : h.val = 0 := by have := h.isLt; omega
      have e : (Rect.unit (s := S50x2304) ![0, 0] S1x2304.size inb_S50x2304_S1x2304_0_0).emb (ix2 h l)
          = ix2 (⟨0, by decide⟩ : Fin 50) l :=
        funext fun a => Fin.ext (by
          match a with
          | ⟨0, _⟩ => show 0 + 1 * h.val = 0; omega
          | ⟨1, _⟩ => show 0 + 1 * l.val = l.val; omega)
      show k0_pay3 (F := Ideal) (ix2 h l) = slabOf x0 ((Rect.unit (s := S50x2304) ![0, 0] S1x2304.size inb_S50x2304_S1x2304_0_0).emb (ix2 h l))
      rw [e, slabOf_apply, dif_neg (by show ¬(1 ≤ 0 ∧ 0 ≤ 48); omega)]
      unfold k0_pay3
      rw [shapeCast_self]
      exact Ideal.ofBits_zero_f32
  · -- the three stores cover the slab: rows 1 … 48, row 49, row 0
    have hn := n.isLt
    by_cases h0 : r.val = 0
    · refine ⟨_, List.mem_cons_of_mem _ (List.mem_cons_of_mem _ List.mem_cons_self), ?_⟩
      rw [Rect.mem_set_unit]
      intro a
      match a with
      | ⟨0, _⟩ => show 0 ≤ r.val ∧ r.val < 0 + 1; omega
      | ⟨1, _⟩ => show 0 ≤ n.val ∧ n.val < 0 + 2304; omega
    · by_cases h49 : r.val = 49
      · refine ⟨_, List.mem_cons_of_mem _ List.mem_cons_self, ?_⟩
        rw [Rect.mem_set_unit]
        intro a
        match a with
        | ⟨0, _⟩ => show 49 ≤ r.val ∧ r.val < 49 + 1; omega
        | ⟨1, _⟩ => show 0 ≤ n.val ∧ n.val < 0 + 2304; omega
      · refine ⟨_, List.mem_cons_self, ?_⟩
        rw [Rect.mem_set_unit]
        intro a
        match a with
        | ⟨0, _⟩ => show 1 ≤ r.val ∧ r.val < 1 + 48; omega
        | ⟨1, _⟩ => show 0 ≤ n.val ∧ n.val < 0 + 2304; omega

/-- What the body leaves in the output block at a grid point: the 27 tiles of the input block. -/
theorem out_eq (c : Dev nD) (i : grid0.Coords) (arg2 : Memref sig .tc .vmem S1x1x48x2304 .f32) (harg2 : arg2.IsWhole)
    (arg3 : Memref sig .tc .vmem S1x1x27x48x2304 .f32) (harg3 : arg3.IsWhole)
    (arg4 : Memref sig .tc .vmem S50x2304 .f32) (harg4 : arg4.IsWhole) (x0 : Vec Ideal S1x1x48x2304 .f32) :
    out0_A_1 (F := Ideal) c i arg2 harg2 arg3 harg3 arg4 harg4 x0 = blockOf x0 := by
  unfold out0_A_1
  rw [View.read_writes_eq_canon _ _ _ (cover0_A_1 c i arg2 harg2 arg3 harg3 arg4 harg4 x0)]
  funext y
  refine View.canon_apply_of_pieces (Val := Elt Ideal) (S := S1x1x27x48x2304) (e := .f32) (blockOf x0) _ ?_ y (cover0_A_1 c i arg2 harg2 arg3 harg3 arg4 harg4 x0 y)
  unfold kernelRun0_A
  dsimp only
  sl_unfold_words
  rw [slab_eq arg2 harg2 arg4 x0]
  repeat' refine List.forall_mem_cons.2 ⟨?_, ?_⟩
  rotate_right
  · exact fun _ h => absurd h List.not_mem_nil
  · -- tile 26: offsets (2, 2, 2)
    intro (x : STile.Idx)
    obtain ⟨h, n, rfl⟩ : ∃ (h : Fin 48) (n : Fin 2304), x = ix5 (0 : Fin 1) (0 : Fin 1) (0 : Fin 1) h n :=
      ⟨x 3, x 4, tile_idx x⟩
    refine Eq.trans ?_ (blockOf_emb x0 26 Facts₀.inb_S1x1x27x48x2304_S1x1x1x48x2304_0_0_26_0_0 h n).symm
    exact tile_value x0 (k0_pay61 (F := Ideal) laneD laneWOk2) 2 2 2 2255#32 (by decide) (by decide) (by decide) (by decide)
      mask22_lane Facts₀.rotates_S50x2304_d1 Facts₀.slices_S50x2304_o2_0_S48x2304
      Facts₀.broadcasts_S1x2304_S48x2304 Facts₀.shapeCasts_S48x2304_S1x1x1x48x2304 h n
  · -- tile 17: offsets (1, 2, 2)
    intro (x : STile.Idx)
    obtain ⟨h, n, rfl⟩ : ∃ (h : Fin 48) (n : Fin 2304), x = ix5 (0 : Fin 1) (0 : Fin 1) (0 : Fin 1) h n :=
      ⟨x 3, x 4, tile_idx x⟩
    refine Eq.trans ?_ (blockOf_emb x0 17 Facts₀.inb_S1x1x27x48x2304_S1x1x1x48x2304_0_0_17_0_0 h n).symm
    exact tile_value x0 (k0_pay61 (F := Ideal) laneD laneWOk2) 1 2 2 2255#32 (by decide) (by decide) (by decide) (by decide)
      mask22_lane Facts₀.rotates_S50x2304_d1 Facts₀.slices_S50x2304_o1_0_S48x2304
      Facts₀.broadcasts_S1x2304_S48x2304 Facts₀.shapeCasts_S48x2304_S1x1x1x48x2304 h n
  · -- tile 8: offsets (0, 2, 2)
    intro (x : STile.Idx)
    obtain ⟨h, n, rfl⟩ : ∃ (h : Fin 48) (n : Fin 2304), x = ix5 (0 : Fin 1) (0 : Fin 1) (0 : Fin 1) h n :=
      ⟨x 3, x 4, tile_idx x⟩
    refine Eq.trans ?_ (blockOf_emb x0 8 Facts₀.inb_S1x1x27x48x2304_S1x1x1x48x2304_0_0_8_0_0 h n).symm
    exact tile_value x0 (k0_pay61 (F := Ideal) laneD laneWOk2) 0 2 2 2255#32 (by decide) (by decide) (by decide) (by decide)
      mask22_lane Facts₀.rotates_S50x2304_d1 Facts₀.slices_S50x2304_o0_0_S48x2304
      Facts₀.broadcasts_S1x2304_S48x2304 Facts₀.shapeCasts_S48x2304_S1x1x1x48x2304 h n
  · -- tile 25: offsets (2, 2, 1)
    intro (x : STile.Idx)
    obtain ⟨h, n, rfl⟩ : ∃ (h : Fin 48) (n : Fin 2304), x = ix5 (0 : Fin 1) (0 : Fin 1) (0 : Fin 1) h n :=
      ⟨x 3, x 4, tile_idx x⟩
    refine Eq.trans ?_ (blockOf_emb x0 25 Facts₀.inb_S1x1x27x48x2304_S1x1x1x48x2304_0_0_25_0_0 h n).symm
    exact tile_value x0 (k0_pay55 (F := Ideal) laneD laneWOk2) 2 2 1 2256#32 (by decide) (by decide) (by decide) (by decide)
      mask21_lane Facts₀.rotates_S50x2304_d1 Facts₀.slices_S50x2304_o2_0_S48x2304
      Facts₀.broadcasts_S1x2304_S48x2304 Facts₀.shapeCasts_S48x2304_S1x1x1x48x2304 h n
  · -- tile 16: offsets (1, 2, 1)
    intro (x : STile.Idx)
    obtain ⟨h, n, rfl⟩ : ∃ (h : Fin 48) (n : Fin 2304), x = ix5 (0 : Fin 1) (0 : Fin 1) (0 : Fin 1) h n :=
      ⟨x 3, x 4, tile_idx x⟩
    refine Eq.trans ?_ (blockOf_emb x0 16 Facts₀.inb_S1x1x27x48x2304_S1x1x1x48x2304_0_0_16_0_0 h n).symm
    exact tile_value x0 (k0_pay55 (F := Ideal) laneD laneWOk2) 1 2 1 2256#32 (by decide) (by decide) (by decide) (by decide)
      mask21_lane Facts₀.rotates_S50x2304_d1 Facts₀.slices_S50x2304_o1_0_S48x2304
      Facts₀.broadcasts_S1x2304_S48x2304 Facts₀.shapeCasts_S48x2304_S1x1x1x48x2304 h n
  · -- tile 7: offsets (0, 2, 1)
    intro (x : STile.Idx)
    obtain ⟨h, n, rfl⟩ : ∃ (h : Fin 48) (n : Fin 2304), x = ix5 (0 : Fin 1) (0 : Fin 1) (0 : Fin 1) h n :=
      ⟨x 3, x 4, tile_idx x⟩
    refine Eq.trans ?_ (blockOf_emb x0 7 Facts₀.inb_S1x1x27x48x2304_S1x1x1x48x2304_0_0_7_0_0 h n).symm
    exact tile_value x0 (k0_pay55 (F := Ideal) laneD laneWOk2) 0 2 1 2256#32 (by decide) (by decide) (by decide) (by decide)
      mask21_lane Facts₀.rotates_S50x2304_d1 Facts₀.slices_S50x2304_o0_0_S48x2304
      Facts₀.broadcasts_S1x2304_S48x2304 Facts₀.shapeCasts_S48x2304_S1x1x1x48x2304 h n
  · -- tile 24: offsets (2, 2, 0)
    intro (x : STile.Idx)
    obtain ⟨h, n, rfl⟩ : ∃ (h : Fin 48) (n : Fin 2304), x = ix5 (0 : Fin 1) (0 : Fin 1) (0 : Fin 1) h n :=
      ⟨x 3, x 4, tile_idx x⟩
    refine Eq.trans ?_ (blockOf_emb x0 24 Facts₀.inb_S1x1x27x48x2304_S1x1x1x48x2304_0_0_24_0_0 h n).symm
    exact tile_value x0 (k0_pay50 (F := Ideal) laneW laneD) 2 2 0 2257#32 (by decide) (by decide) (by decide) (by decide)
      mask20_lane Facts₀.rotates_S50x2304_d1 Facts₀.slices_S50x2304_o2_0_S48x2304
      Facts₀.broadcasts_S1x2304_S48x2304 Facts₀.shapeCasts_S48x2304_S1x1x1x48x2304 h n
  · -- tile 15: offsets (1, 2, 0)
    intro (x : STile.Idx)
    obtain ⟨h, n, rfl⟩ : ∃ (h : Fin 48) (n : Fin 2304), x = ix5 (0 : Fin 1) (0 : Fin 1) (0 : Fin 1) h n :=
      ⟨x 3, x 4, tile_idx x⟩
    refine Eq.trans ?_ (blockOf_emb x0 15 Facts₀.inb_S1x1x27x48x2304_S1x1x1x48x2304_0_0_15_0_0 h n).symm
    exact tile_value x0 (k0_pay50 (F := Ideal) laneW laneD) 1 2 0 2257#32 (by decide) (by decide) (by decide) (by decide)
      mask20_lane Facts₀.rotates_S50x2304_d1 Facts₀.slices_S50x2304_o1_0_S48x2304
      Facts₀.broadcasts_S1x2304_S48x2304 Facts₀.shapeCasts_S48x2304_S1x1x1x48x2304 h n
  · -- tile 6: offsets (0, 2, 0)
    intro (x : STile.Idx)
    obtain ⟨h, n, rfl⟩ : ∃ (h : Fin 48) (n : Fin 2304), x = ix5 (0 : Fin 1) (0 : Fin 1) (0 : Fin 1) h n :=
      ⟨x 3, x 4, tile_idx x⟩
    refine Eq.trans ?_ (blockOf_emb x0 6 Facts₀.inb_S1x1x27x48x2304_S1x1x1x48x2304_0_0_6_0_0 h n).symm
    exact tile_value x0 (k0_pay50 (F := Ideal) laneW laneD) 0 2 0 2257#32 (by decide) (by decide) (by decide) (by decide)
      mask20_lane Facts₀.rotates_S50x2304_d1 Facts₀.slices_S50x2304_o0_0_S48x2304
      Facts₀.broadcasts_S1x2304_S48x2304 Facts₀.shapeCasts_S48x2304_S1x1x1x48x2304 h n
  · -- tile 23: offsets (2, 1, 2)
    intro (x : STile.Idx)
    obtain ⟨h, n, rfl⟩ : ∃ (h : Fin 48) (n : Fin 2304), x = ix5 (0 : Fin 1) (0 : Fin 1) (0 : Fin 1) h n :=
      ⟨x 3, x 4, tile_idx x⟩
    refine Eq.trans ?_ (blockOf_emb x0 23 Facts₀.inb_S1x1x27x48x2304_S1x1x1x48x2304_0_0_23_0_0 h n).symm
    exact tile_value x0 (k0_pay43 (F := Ideal) laneD laneWOk1) 2 1 2 2303#32 (by decide) (by decide) (by decide) (by decide)
      mask12_lane Facts₀.rotates_S50x2304_d1 Facts₀.slices_S50x2304_o2_0_S48x2304
      Facts₀.broadcasts_S1x2304_S48x2304 Facts₀.shapeCasts_S48x2304_S1x1x1x48x2304 h n
  · -- tile 14: offsets (1, 1, 2)
    intro (x : STile.Idx)
    obtain ⟨h, n, rfl⟩ : ∃ (h : Fin 48) (n : Fin 2304), x = ix5 (0 : Fin 1) (0 : Fin 1) (0 : Fin 1) h n :=
      ⟨x 3, x 4, tile_idx x⟩
    refine Eq.trans ?_ (blockOf_emb x0 14 Facts₀.inb_S1x1x27x48x2304_S1x1x1x48x2304_0_0_14_0_0 h n).symm
    exact tile_value x0 (k0_pay43 (F := Ideal) laneD laneWOk1) 1 1 2 2303#32 (by decide) (by decide) (by decide) (by decide)
      mask12_lane Facts₀.rotates_S50x2304_d1 Facts₀.slices_S50x2304_o1_0_S48x2304
      Facts₀.broadcasts_S1x2304_S48x2304 Facts₀.shapeCasts_S48x2304_S1x1x1x48x2304 h n
  · -- tile 5: offsets (0, 1, 2)
    intro (x : STile.Idx)
    obtain ⟨h, n, rfl⟩ : ∃ (h : Fin 48) (n : Fin 2304), x = ix5 (0 : Fin 1) (0 : Fin 1) (0 : Fin 1) h n :=
      ⟨x 3, x 4, tile_idx x⟩
    refine Eq.trans ?_ (blockOf_emb x0 5 Facts₀.inb_S1x1x27x48x2304_S1x1x1x48x2304_0_0_5_0_0 h n).symm
    exact tile_value x0 (k0_pay43 (F := Ideal) laneD laneWOk1) 0 1 2 2303#32 (by decide) (by decide) (by decide) (by decide)
      mask12_lane Facts₀.rotates_S50x2304_d1 Facts₀.slices_S50x2304_o0_0_S48x2304
      Facts₀.broadcasts_S1x2304_S48x2304 Facts₀.shapeCasts_S48x2304_S1x1x1x48x2304 h n
  · -- tile 22: offsets (2, 1, 1)
    intro (x : STile.Idx)
    obtain ⟨h, n, rfl⟩ : ∃ (h : Fin 48) (n : Fin 2304), x = ix5 (0 : Fin 1) (0 : Fin 1) (0 : Fin 1) h n :=
      ⟨x 3, x 4, tile_idx x⟩
    refine Eq.trans ?_ (blockOf_emb x0 22 Facts₀.inb_S1x1x27x48x2304_S1x1x1x48x2304_0_0_22_0_0 h n).symm
    exact tile_value x0 (k0_pay37 (F := Ideal) laneD laneWOk1) 2 1 1 0#32 (by decide) (by decide) (by decide) (by decide)
      mask11_lane Facts₀.rotates_S50x2304_d1 Facts₀.slices_S50x2304_o2_0_S48x2304
      Facts₀.broadcasts_S1x2304_S48x2304 Facts₀.shapeCasts_S48x2304_S1x1x1x48x2304 h n
  · -- tile 13: offsets (1, 1, 1)
    intro (x : STile.Idx)
    obtain ⟨h, n, rfl⟩ : ∃ (h : Fin 48) (n : Fin 2304), x = ix5 (0 : Fin 1) (0 : Fin 1) (0 : Fin 1) h n :=
      ⟨x 3, x 4, tile_idx x⟩
    refine Eq.trans ?_ (blockOf_emb x0 13 Facts₀.inb_S1x1x27x48x2304_S1x1x1x48x2304_0_0_13_0_0 h n).symm
    exact tile_value x0 (k0_pay37 (F := Ideal) laneD laneWOk1) 1 1 1 0#32 (by decide) (by decide) (by decide) (by decide)
      mask11_lane Facts₀.rotates_S50x2304_d1 Facts₀.slices_S50x2304_o1_0_S48x2304
      Facts₀.broadcasts_S1x2304_S48x2304 Facts₀.shapeCasts_S48x2304_S1x1x1x48x2304 h n
  · -- tile 4: offsets (0, 1, 1)
    intro (x : STile.Idx)
    obtain ⟨h, n, rfl⟩ : ∃ (h : Fin 48) (n : Fin 2304), x = ix5 (0 : Fin 1) (0 : Fin 1) (0 : Fin 1) h n :=
      ⟨x 3, x 4, tile_idx x⟩
    refine Eq.trans ?_ (blockOf_emb x0 4 Facts₀.inb_S1x1x27x48x2304_S1x1x1x48x2304_0_0_4_0_0 h n).symm
    exact tile_value x0 (k0_pay37 (F := Ideal) laneD laneWOk1) 0 1 1 0#32 (by decide) (by decide) (by decide) (by decide)
      mask11_lane Facts₀.rotates_S50x2304_d1 Facts₀.slices_S50x2304_o0_0_S48x2304
      Facts₀.broadcasts_S1x2304_S48x2304 Facts₀.shapeCasts_S48x2304_S1x1x1x48x2304 h n
  · -- tile 21: offsets (2, 1, 0)
    intro (x : STile.Idx)
    obtain ⟨h, n, rfl⟩ : ∃ (h : Fin 48) (n : Fin 2304), x = ix5 (0 : Fin 1) (0 : Fin 1) (0 : Fin 1) h n :=
      ⟨x 3, x 4, tile_idx x⟩
    refine Eq.trans ?_ (blockOf_emb x0 21 Facts₀.inb_S1x1x27x48x2304_S1x1x1x48x2304_0_0_21_0_0 h n).symm
    exact tile_value x0 (k0_pay31 (F := Ideal) laneW laneD) 2 1 0 1#32 (by decide) (by decide) (by decide) (by decide)
      mask10_lane Facts₀.rotates_S50x2304_d1 Facts₀.slices_S50x2304_o2_0_S48x2304
      Facts₀.broadcasts_S1x2304_S48x2304 Facts₀.shapeCasts_S48x2304_S1x1x1x48x2304 h n
  · -- tile 12: offsets (1, 1, 0)
    intro (x : STile.Idx)
    obtain ⟨h, n, rfl⟩ : ∃ (h : Fin 48) (n : Fin 2304), x = ix5 (0 : Fin 1) (0 : Fin 1) (0 : Fin 1) h n :=
      ⟨x 3, x 4, tile_idx x⟩
    refine Eq.trans ?_ (blockOf_emb x0 12 Facts₀.inb_S1x1x27x48x2304_S1x1x1x48x2304_0_0_12_0_0 h n).symm
    exact tile_value x0 (k0_pay31 (F := Ideal) laneW laneD) 1 1 0 1#32 (by decide) (by decide) (by decide) (by decide)
      mask10_lane Facts₀.rotates_S50x2304_d1 Facts₀.slices_S50x2304_o1_0_S48x2304
      Facts₀.broadcasts_S1x2304_S48x2304 Facts₀.shapeCasts_S48x2304_S1x1x1x48x2304 h n
  · -- tile 3: offsets (0, 1, 0)
    intro (x : STile.Idx)
    obtain ⟨h, n, rfl⟩ : ∃ (h : Fin 48) (n : Fin 2304), x = ix5 (0 : Fin 1) (0 : Fin 1) (0 : Fin 1) h n :=
      ⟨x 3, x 4, tile_idx x⟩
    refine Eq.trans ?_ (blockOf_emb x0 3 Facts₀.inb_S1x1x27x48x2304_S1x1x1x48x2304_0_0_3_0_0 h n).symm
    exact tile_value x0 (k0_pay31 (F := Ideal) laneW laneD) 0 1 0 1#32 (by decide) (by decide) (by decide) (by decide)
      mask10_lane Facts₀.rotates_S50x2304_d1 Facts₀.slices_S50x2304_o0_0_S48x2304
      Facts₀.broadcasts_S1x2304_S48x2304 Facts₀.shapeCasts_S48x2304_S1x1x1x48x2304 h n
  · -- tile 20: offsets (2, 0, 2)
    intro (x : STile.Idx)
    obtain ⟨h, n, rfl⟩ : ∃ (h : Fin 48) (n : Fin 2304), x = ix5 (0 : Fin 1) (0 : Fin 1) (0 : Fin 1) h n :=
      ⟨x 3, x 4, tile_idx x⟩
    refine Eq.trans ?_ (blockOf_emb x0 20 Facts₀.inb_S1x1x27x48x2304_S1x1x1x48x2304_0_0_20_0_0 h n).symm
    exact tile_value x0 (k0_pay23 (F := Ideal) laneD laneWOk0) 2 0 2 47#32 (by decide) (by decide) (by decide) (by decide)
      mask02_lane Facts₀.rotates_S50x2304_d1 Facts₀.slices_S50x2304_o2_0_S48x2304
      Facts₀.broadcasts_S1x2304_S48x2304 Facts₀.shapeCasts_S48x2304_S1x1x1x48x2304 h n
  · -- tile 11: offsets (1, 0, 2)
    intro (x : STile.Idx)
    obtain ⟨h, n, rfl⟩ : ∃ (h : Fin 48) (n : Fin 2304), x = ix5 (0 : Fin 1) (0 : Fin 1) (0 : Fin 1) h n :=
      ⟨x 3, x 4, tile_idx x⟩
    refine Eq.trans ?_ (blockOf_emb x0 11 Facts₀.inb_S1x1x27x48x2304_S1x1x1x48x2304_0_0_11_0_0 h n).symm
    exact tile_value x0 (k0_pay23 (F := Ideal) laneD laneWOk0) 1 0 2 47#32 (by decide) (by decide) (by decide) (by decide)
      mask02_lane Facts₀.rotates_S50x2304_d1 Facts₀.slices_S50x2304_o1_0_S48x2304
      Facts₀.broadcasts_S1x2304_S48x2304 Facts₀.shapeCasts_S48x2304_S1x1x1x48x2304 h n
  · -- tile 2: offsets (0, 0, 2)
    intro (x : STile.Idx)
    obtain ⟨h, n, rfl⟩ : ∃ (h : Fin 48) (n : Fin 2304), x = ix5 (0 : Fin 1) (0 : Fin 1) (0 : Fin 1) h n :=
      ⟨x 3, x 4, tile_idx x⟩
    refine Eq.trans ?_ (blockOf_emb x0 2 Facts₀.inb_S1x1x27x48x2304_S1x1x1x48x2304_0_0_2_0_0 h n).symm
    exact tile_value x0 (k0_pay23 (F := Ideal) laneD laneWOk0) 0 0 2 47#32 (by decide) (by decide) (by decide) (by decide)
      mask02_lane Facts₀.rotates_S50x2304_d1 Facts₀.slices_S50x2304_o0_0_S48x2304
      Facts₀.broadcasts_S1x2304_S48x2304 Facts₀.shapeCasts_S48x2304_S1x1x1x48x2304 h n
  · -- tile 19: offsets (2, 0, 1)
    intro (x : STile.Idx)
    obtain ⟨h, n, rfl⟩ : ∃ (h : Fin 48) (n : Fin 2304), x = ix5 (0 : Fin 1) (0 : Fin 1) (0 : Fin 1) h n :=
      ⟨x 3, x 4, tile_idx x⟩
    refine Eq.trans ?_ (blockOf_emb x0 19 Facts₀.inb_S1x1x27x48x2304_S1x1x1x48x2304_0_0_19_0_0 h n).symm
    exact tile_value x0 (k0_pay18 (F := Ideal) laneD laneWOk0) 2 0 1 48#32 (by decide) (by decide) (by decide) (by decide)
      mask01_lane Facts₀.rotates_S50x2304_d1 Facts₀.slices_S50x2304_o2_0_S48x2304
      Facts₀.broadcasts_S1x2304_S48x2304 Facts₀.shapeCasts_S48x2304_S1x1x1x48x2304 h n
  · -- tile 10: offsets (1, 0, 1)
    intro (x : STile.Idx)
    obtain ⟨h, n, rfl⟩ : ∃ (h : Fin 48) (n : Fin 2304), x = ix5 (0 : Fin 1) (0 : Fin 1) (0 : Fin 1) h n :=
      ⟨x 3, x 4, tile_idx x⟩
    refine Eq.trans ?_ (blockOf_emb x0 10 Facts₀.inb_S1x1x27x48x2304_S1x1x1x48x2304_0_0_10_0_0 h n).symm
    exact tile_value x0 (k0_pay18 (F := Ideal) laneD laneWOk0) 1 0 1 48#32 (by decide) (by decide) (by decide) (by decide)
      mask01_lane Facts₀.rotates_S50x2304_d1 Facts₀.slices_S50x2304_o1_0_S48x2304
      Facts₀.broadcasts_S1x2304_S48x2304 Facts₀.shapeCasts_S48x2304_S1x1x1x48x2304 h n
  · -- tile 1: offsets (0, 0, 1)
    intro (x : STile.Idx)
    obtain ⟨h, n, rfl⟩ : ∃ (h : Fin 48) (n : Fin 2304), x = ix5 (0 : Fin 1) (0 : Fin 1) (0 : Fin 1) h n :=
      ⟨x 3, x 4, tile_idx x⟩
    refine Eq.trans ?_ (blockOf_emb x0 1 Facts₀.inb_S1x1x27x48x2304_S1x1x1x48x2304_0_0_1_0_0 h n).symm
    exact tile_value x0 (k0_pay18 (F := Ideal) laneD laneWOk0) 0 0 1 48#32 (by decide) (by decide) (by decide) (by decide)
      mask01_lane Facts₀.rotates_S50x2304_d1 Facts₀.slices_S50x2304_o0_0_S48x2304
      Facts₀.broadcasts_S1x2304_S48x2304 Facts₀.shapeCasts_S48x2304_S1x1x1x48x2304 h n
  · -- tile 18: offsets (2, 0, 0)
    intro (x : STile.Idx)
    obtain ⟨h, n, rfl⟩ : ∃ (h : Fin 48) (n : Fin 2304), x = ix5 (0 : Fin 1) (0 : Fin 1) (0 : Fin 1) h n :=
      ⟨x 3, x 4, tile_idx x⟩
    refine Eq.trans ?_ (blockOf_emb x0 18 Facts₀.inb_S1x1x27x48x2304_S1x1x1x48x2304_0_0_18_0_0 h n).symm
    exact tile_value x0 (k0_pay12 (F := Ideal) laneIota k0_pay6 k0_pay7 k0_pay8) 2 0 0 49#32 (by decide) (by decide) (by decide) (by decide)
      mask00_lane Facts₀.rotates_S50x2304_d1 Facts₀.slices_S50x2304_o2_0_S48x2304
      Facts₀.broadcasts_S1x2304_S48x2304 Facts₀.shapeCasts_S48x2304_S1x1x1x48x2304 h n
  · -- tile 9: offsets (1, 0, 0)
    intro (x : STile.Idx)
    obtain ⟨h, n, rfl⟩ : ∃ (h : Fin 48) (n : Fin 2304), x = ix5 (0 : Fin 1) (0 : Fin 1) (0 : Fin 1) h n :=
      ⟨x 3, x 4, tile_idx x⟩
    refine Eq.trans ?_ (blockOf_emb x0 9 Facts₀.inb_S1x1x27x48x2304_S1x1x1x48x2304_0_0_9_0_0 h n).symm
    exact tile_value x0 (k0_pay12 (F := Ideal) laneIota k0_pay6 k0_pay7 k0_pay8) 1 0 0 49#32 (by decide) (by decide) (by decide) (by decide)
      mask00_lane Facts₀.rotates_S50x2304_d1 Facts₀.slices_S50x2304_o1_0_S48x2304
      Facts₀.broadcasts_S1x2304_S48x2304 Facts₀.shapeCasts_S48x2304_S1x1x1x48x2304 h n
  · -- tile 0: offsets (0, 0, 0)
    intro (x : STile.Idx)
    obtain ⟨h, n, rfl⟩ : ∃ (h : Fin 48) (n : Fin 2304), x = ix5 (0 : Fin 1) (0 : Fin 1) (0 : Fin 1) h n :=
      ⟨x 3, x 4, tile_idx x⟩
    refine Eq.trans ?_ (blockOf_emb x0 0 Facts₀.inb_S1x1x27x48x2304_S1x1x1x48x2304_0_0_0_0_0 h n).symm
    exact tile_value x0 (k0_pay12 (F := Ideal) laneIota k0_pay6 k0_pay7 k0_pay8) 0 0 0 49#32 (by decide) (by decide) (by decide) (by decide)
      mask00_lane Facts₀.rotates_S50x2304_d1 Facts₀.slices_S50x2304_o0_0_S48x2304
      Facts₀.broadcasts_S1x2304_S48x2304 Facts₀.shapeCasts_S48x2304_S1x1x1x48x2304 h n

end Cert.UnfoldBody

end
-- ==== Proof.UnfoldArray.lean ====
/-
  The kernel's result array: the unfold of the argument.

  The region's input array is the argument with its two last spatial axes merged ([2, 16, 48, 2304]: a reshape before the
  region), cut into one block [1, 1, 48, 2304] per grid point (b, c); the output array [2, 16, 27, 48, 2304] is cut into
  one block [1, 1, 27, 48, 2304] per point, written back at every point. Point (b, c) leaves the 27 tiles of its input
  block in its output block (`out_eq`), and a tile of rows of the merged volume is the padded volume
  (`tileOf_eq_padded`), so what each point writes back is its block of `tiles` of the argument (`flushed_eq`); the 32
  blocks cover the output array (`cover`), so the array ends at `tiles` of the argument (`final`); and the reshape
  after the region flattens it to `unfolded` of the argument (`run`).
-/
import proofs.«121408_j2757369004156_2_alg».proof.Proof.Gen.KernelIdeal.Frame
import proofs.«121408_j2757369004156_2_alg».proof.Proof.UnfoldSpec
import proofs.«121408_j2757369004156_2_alg».proof.Proof.UnfoldTile
import proofs.«121408_j2757369004156_2_alg».proof.Proof.UnfoldJoin
import proofs.«121408_j2757369004156_2_alg».proof.Proof.UnfoldBody
import Idealize.ShloMosaic.Lib.Pipeline.Value
import Idealize.ShloMosaic.Lib.ValueIdx
import Idealize.ShloMosaic.Lib.StableHlo.Run
import Idealize.ShloMosaic.Lib.Tactic

set_option maxRecDepth 16384

noncomputable section

namespace Cert.UnfoldArray

open Idealize.ShloMosaic Idealize.ShloMosaic.TcCoe Idealize.ShloMosaic.ValueIdx Idealize.SL.Sem
open Idealize.ShloMosaic.Pipeline (Dat)
open Cert.KernelIdeal Cert.KernelIdeal.Gen Cert.UnfoldSpec Cert.UnfoldTile Cert.UnfoldJoin Cert.UnfoldBody

variable (m : (ℓ : Loc nD τ sig) → Buf (Elt Ideal) ℓ) (ρ : Dev nD → PrngReg)

/-- The argument array on core c. -/
abbrev arg (c : Dev nD) : SVol.Idx → EReal := m ((c : Thread nD τ).loc main_arg0)

/-- The region's input array: the argument with its two last spatial axes merged. -/
theorem V_merged (c : Dev nD) :
    (V m c main_v0 : S2x16x48x2304.Idx → EReal)
      = shapeCast S2x16x48x2304 (arg m c) shapeCasts_S2x16x48x48x48_S2x16x48x2304 := by
  show StableHlo.after hostOps0 (fun b => m (c, b)) (Proc.devRef .tc main_v0) = _
  after_results
  rfl

/-- The index maps over the grid: point t's input block is (b, c, 0, 0) and its output block (b, c, 0, 0, 0) for the
    same (b, c), b ≤ 1 and c ≤ 15. -/
theorem idx_facts : ∀ t : Fin cfg0.N,
    win0_0.index t (0 : Fin 4) = win0_1.index t (0 : Fin 5) ∧ win0_0.index t (1 : Fin 4) = win0_1.index t (1 : Fin 5)
    ∧ win0_0.index t (2 : Fin 4) = 0 ∧ win0_0.index t (3 : Fin 4) = 0
    ∧ win0_1.index t (2 : Fin 5) = 0 ∧ win0_1.index t (3 : Fin 5) = 0 ∧ win0_1.index t (4 : Fin 5) = 0
    ∧ win0_1.index t (0 : Fin 5) ≤ 1 ∧ win0_1.index t (1 : Fin 5) ≤ 15 :=
  (by decide +kernel : ∀ t : Fin grid0.N, _)

/-- Every (b, c) is some point's. -/
theorem idx_onto : ∀ (q0 : Fin 2) (q1 : Fin 16), ∃ t : Fin cfg0.N, win0_1.index t = ![q0.val, q1.val, 0, 0, 0] :=
  (by decide +kernel : ∀ (q0 : Fin 2) (q1 : Fin 16), ∃ t : Fin grid0.N, win0_1.index t = ![q0.val, q1.val, 0, 0, 0])

/-- Point t's (b, c). -/
abbrev ptB (t : Fin cfg0.N) : Fin 2 := ⟨win0_1.index t (0 : Fin 5), by have := (idx_facts t).2.2.2.2.2.2.2.1; omega⟩
abbrev ptC (t : Fin cfg0.N) : Fin 16 := ⟨win0_1.index t (1 : Fin 5), by have := (idx_facts t).2.2.2.2.2.2.2.2; omega⟩

/-- Point t's input block at (r, n'): the argument at (b, c, r, n' / 48, n' % 48). -/
theorem iblk_apply (c : Dev nD) (t : Fin cfg0.N) (r : Fin 48) (n' : Fin 2304) :
    (iblk m c 0 t : SBlock.Idx → EReal) (ix4 (0 : Fin 1) (0 : Fin 1) r n')
      = arg m c (ix5 (ptB t) (ptC t) r (⟨n'.val / 48, by have := n'.isLt; omega⟩ : Fin 48) (⟨n'.val % 48, by omega⟩ : Fin 48)) := by
  obtain ⟨e0, e1, e2, e3, -⟩ := idx_facts t
  have hn := n'.isLt
  have hr := r.isLt
  unfold iblk
  rw [View.read_apply]
  show V m c main_v0 (((cfg0.win 0).blk t).view.emb (ix4 (0 : Fin 1) (0 : Fin 1) r n')) = _
  rw [V_merged]
  refine shapeCast_apply (arg m c) shapeCasts_S2x16x48x48x48_S2x16x48x2304 _ _ ?_
  rw [Shape.rowMajor_val_five, Shape.rowMajor_val_four]
  show ((((win0_1.index t (0 : Fin 5)) * 16 + win0_1.index t (1 : Fin 5)) * 48 + r.val) * 48 + n'.val / 48) * 48 + n'.val % 48
    = (((win0_0.index t (0 : Fin 4) * 1 + 1 * 0) * 16 + (win0_0.index t (1 : Fin 4) * 1 + 1 * 0)) * 48
        + (win0_0.index t (2 : Fin 4) * 48 + 1 * r.val)) * 2304 + (win0_0.index t (3 : Fin 4) * 2304 + 1 * n'.val)
  rw [e0, e1, e2, e3]
  omega

/-- For any block xb that is rows (b, c) of the merged volume x at point t's (b, c), and any array T that holds the
    padded volume of x tile by tile (as `tiles` of x does): the 27 tiles of xb, as the write-back reads them, are point
    t's block of T. -/
theorem flushed_block (t : Fin cfg0.N) (xb : SBlock.Idx → EReal) (x : SVol.Idx → EReal) (T : STiles.Idx → EReal)
    (hT : ∀ (b : Fin 2) (c : Fin 16) (k : Fin 27) (h : Fin 48) (n : Fin 2304), T (ix5 b c k h n)
      = padded x b c (h.val + k.val / 9) (n.val / 48 + k.val / 3 % 3) (n.val % 48 + k.val % 3))
    (hxb : ∀ (r : Fin 48) (n' : Fin 2304), xb (ix4 (0 : Fin 1) (0 : Fin 1) r n')
      = x (ix5 (ptB t) (ptC t) r (⟨n'.val / 48, by have := n'.isLt; omega⟩ : Fin 48) (⟨n'.val % 48, by omega⟩ : Fin 48))) :
    (cfg0.win 1).cut (grid0.coords t) (blockOf xb) = ((cfg0.win 1).blk t).view.read (Elt Ideal) T := by
  obtain ⟨-, -, -, -, e4, e5, e6, -⟩ := idx_facts t
  funext y
  have h0 : (y 0).val < 1 := (y 0).isLt
  have h1 : (y 1).val < 1 := (y 1).isLt
  have h2 : (y 2).val < 27 := (y 2).isLt
  have h3 : (y 3).val < 48 := (y 3).isLt
  have h4 : (y 4).val < 2304 := (y 4).isLt
  have hemb : ((cfg0.win 1).blk t).view.emb y
      = ix5 (ptB t) (ptC t) (⟨(y 2).val, h2⟩ : Fin 27) (⟨(y 3).val, h3⟩ : Fin 48) (⟨(y 4).val, h4⟩ : Fin 2304) :=
    funext fun a => Fin.ext (by
      match a with
      | ⟨0, _⟩ => show win0_1.index t (0 : Fin 5) * 1 + 1 * (y 0).val = win0_1.index t (0 : Fin 5); omega
      | ⟨1, _⟩ => show win0_1.index t (1 : Fin 5) * 1 + 1 * (y 1).val = win0_1.index t (1 : Fin 5); omega
      | ⟨2, _⟩ => show win0_1.index t (2 : Fin 5) * 27 + 1 * (y 2).val = (y 2).val; omega
      | ⟨3, _⟩ => show win0_1.index t (3 : Fin 5) * 48 + 1 * (y 3).val = (y 3).val; omega
      | ⟨4, _⟩ => show win0_1.index t (4 : Fin 5) * 2304 + 1 * (y 4).val = (y 4).val; omega)
  show blockOf xb ((cfg0.win 1).xinj (grid0.coords t) y) = T (((cfg0.win 1).blk t).view.emb y)
  rw [hemb, hT]
  exact tileOf_eq_padded x xb (ptB t) (ptC t) hxb ((y 2).val / 9) ((y 2).val / 3 % 3) ((y 2).val % 3)
    (⟨(y 3).val, h3⟩ : Fin 48) (⟨(y 4).val, h4⟩ : Fin 2304)

/-- What point t writes back is its block of `tiles` of the argument. -/
theorem flushed_eq (c : Dev nD) (t : Fin cfg0.N) :
    (dats m 0 c).flushed 1 t = ((cfg0.win 1).blk t).view.read (Elt Ideal) (tiles (arg m c)) := by
  show (cfg0.win 1).cut (grid0.coords t) ((dats m 0 c).after 1 t) = _
  rw [after0_1]
  unfold outsAt0
  rw [out_eq]
  exact flushed_block t (iblk m c 0 t) (arg m c) (tiles (arg m c)) (tiles_apply (arg m c)) (iblk_apply m c t)

/-- An index of the output array is in point t's block iff each coordinate is in the block's range on its axis. -/
theorem mem_blk (t : Fin cfg0.N) (i : S2x16x27x48x2304.Idx) :
    i ∈ ((cfg0.win 1).blk t).view.set ↔ ∀ a : Fin 5, win0_1.index t a * S1x1x27x48x2304.size a ≤ (i a).val
      ∧ (i a).val < win0_1.index t a * S1x1x27x48x2304.size a + S1x1x27x48x2304.size a := by
  show i ∈ ((View.whole main_v1).slice (win0_1.rect t)).set ↔ _
  rw [View.set_slice_whole, Rect.mem_set_unit]
  exact Iff.rfl

/-- The blocks cover the output array: index (b, c, k, h, n) is in the block of the point with that (b, c). -/
theorem cover (i : S2x16x27x48x2304.Idx) :
    ∃ t : Fin cfg0.N, (cfg0.win 1).flush t = true ∧ i ∈ ((cfg0.win 1).blk t).view.set := by
  obtain ⟨t, ht⟩ := idx_onto (i 0) (i 1)
  have q0 : win0_1.index t (0 : Fin 5) = (i 0).val := congrFun ht 0
  have q1 : win0_1.index t (1 : Fin 5) = (i 1).val := congrFun ht 1
  have q2 : win0_1.index t (2 : Fin 5) = 0 := congrFun ht 2
  have q3 : win0_1.index t (3 : Fin 5) = 0 := congrFun ht 3
  have q4 : win0_1.index t (4 : Fin 5) = 0 := congrFun ht 4
  have h2 : (i 2).val < 27 := (i 2).isLt
  have h3 : (i 3).val < 48 := (i 3).isLt
  have h4 : (i 4).val < 2304 := (i 4).isLt
  refine ⟨t, flush0_1 t, ?_⟩
  rw [mem_blk]
  intro a
  match a with
  | ⟨0, _⟩ => show win0_1.index t (0 : Fin 5) * 1 ≤ (i 0).val ∧ (i 0).val < win0_1.index t (0 : Fin 5) * 1 + 1; omega
  | ⟨1, _⟩ => show win0_1.index t (1 : Fin 5) * 1 ≤ (i 1).val ∧ (i 1).val < win0_1.index t (1 : Fin 5) * 1 + 1; omega
  | ⟨2, _⟩ => show win0_1.index t (2 : Fin 5) * 27 ≤ (i 2).val ∧ (i 2).val < win0_1.index t (2 : Fin 5) * 27 + 27; omega
  | ⟨3, _⟩ => show win0_1.index t (3 : Fin 5) * 48 ≤ (i 3).val ∧ (i 3).val < win0_1.index t (3 : Fin 5) * 48 + 48; omega
  | ⟨4, _⟩ => show win0_1.index t (4 : Fin 5) * 2304 ≤ (i 4).val ∧ (i 4).val < win0_1.index t (4 : Fin 5) * 2304 + 2304; omega

/-- The output array after the region: `tiles` of the argument. -/
theorem final (c : Dev nD) : (dats m 0 c).arrAt 1 cfg0.N = tiles (arg m c) :=
  (dats m 0 c).arrAt_eq_of_cover 1 (tiles (arg m c)) (fun t _ => flushed_eq m c t) (cover)

/-- The result after the reshape that follows the region: `unfolded` of the argument. -/
theorem tail_eq (c : Dev nD) :
    Pipeline.afterTail₀ cfgs (dats m) 0 (V0 m) [hostOps1] c main_v2 = unfolded (arg m c) := by
  unfold Pipeline.afterTail₀
  show StableHlo.after hostOps1 _ (Proc.devRef .tc main_v2) = _
  after_results
  rw [show Pipeline.withArrays (cfgs 0).spec c (V0 m c) (fun w => (dats m 0 c).arrAt w (cfgs 0).N) (Proc.devRef .tc main_v1)
      = tiles (arg m c) from (Pipeline.withArrays_arr spec0 launch0.win.arr_inj c _ _ 1).trans (final m c)]
  exact shapeCast_tiles (arg m c)

/-- The kernel's run, read: the result at `unfolded` of the argument, the argument unchanged. -/
theorem run : θ_run defs (onTc (τ := τ) (main (F := Ideal))) ⟨m, fun _ => 0, ρ⟩ fun r => ∀ c : Dev nD,
      r.2.mem ((c.tc : Thread nD τ).loc main_v2) = unfolded (arg m c)
      ∧ r.2.mem ((c.tc : Thread nD τ).loc main_arg0) = m ((c.tc : Thread nD τ).loc main_arg0) :=
  (θ_run defs _ _).mono (fun r h c =>
      ⟨((h c).2 main_v2 (Pipeline.mem_restRefs_of main_v2 (by decide) (by decide))).trans (tail_eq m c),
        ((h c).2 main_arg0 (Pipeline.mem_restRefs_of main_arg0 (by decide) (by decide))).trans (W_main_arg0 m (dats m) c)⟩)
    (run_main m ρ)

end Cert.UnfoldArray

end
-- ==== Proof.lean ====
/-
  The 3×3×3 unfold (im2col) of a volume: a kernel against its jnp reference, at the extended reals.

  For x : f32[2, 16, 48, 48, 48] both programs produce f32[2, 432, 110592]: channel c·27 + k, k = 9·i + 3·j + l, holds at
  position (h·48 + w)·48 + d the entry of x zero-padded by one on each side of its three spatial axes at padded
  coordinates (h + i, w + j, d + l) (`Cert.UnfoldSpec.unfolded`).

  The reference pads, takes the 27 shifted slices, stacks them on a new axis and reshapes: read one operation at a time
  it is `unfolded` of its argument (`Cert.UnfoldRef.reference_unfolded`).

  The kernel merges the two last spatial axes (lane n = w·48 + d), and at each of the 32 grid points (b, c) builds the
  row-padded slab of its [48, 2304] block in scratch, and for each (j, l) rotates the slab along the lanes by
  48·(j − 1) + (l − 1) and multiplies by the 0/1 mask of the lanes whose w + j − 1 and d + l − 1 stay in range; rows
  i … i + 47 of that are tile k. Where the mask is 1 the rotated lane does not wrap, so the product is the shifted
  entry; where it is 0 the product is 0 (x · 0 = 0 on every extended real, so no finiteness is used). The 32 output
  blocks tile the [2, 16, 27, 48, 2304] array, and the reshape after the region flattens it: `Cert.UnfoldArray.run`.

  The three frames are the generated ones (the reference's is its generated run with the result dropped); the ideal pass
  rewrote nothing, so the kernel's idealization is the kernel read at the extended reals.
-/
import proofs.«121408_j2757369004156_2_alg».proof.Defs
import proofs.«121408_j2757369004156_2_alg».proof.Proof.Gen.Kernel
import proofs.«121408_j2757369004156_2_alg».proof.Proof.Gen.Kernel.Skeleton
import proofs.«121408_j2757369004156_2_alg».proof.Proof.Gen.Kernel.Launch
import proofs.«121408_j2757369004156_2_alg».proof.Proof.Gen.Kernel.Points
import proofs.«121408_j2757369004156_2_alg».proof.Proof.Gen.Kernel.Frame
import proofs.«121408_j2757369004156_2_alg».proof.Proof.Gen.KernelIdeal
import proofs.«121408_j2757369004156_2_alg».proof.Proof.Gen.KernelIdeal.Skeleton
import proofs.«121408_j2757369004156_2_alg».proof.Proof.Gen.KernelIdeal.Launch
import proofs.«121408_j2757369004156_2_alg».proof.Proof.Gen.KernelIdeal.Points
import proofs.«121408_j2757369004156_2_alg».proof.Proof.Gen.KernelIdeal.Frame
import proofs.«121408_j2757369004156_2_alg».proof.Proof.Gen.ReferenceIdeal
import proofs.«121408_j2757369004156_2_alg».proof.Proof.Gen.ReferenceIdeal.Run
import proofs.«121408_j2757369004156_2_alg».proof.Proof.Gen.ReferenceIdeal.Read
import proofs.«121408_j2757369004156_2_alg».proof.Proof.Gen.Pre_finite_inputs
import proofs.«121408_j2757369004156_2_alg».proof.Proof.UnfoldSpec
import proofs.«121408_j2757369004156_2_alg».proof.Proof.UnfoldRef
import proofs.«121408_j2757369004156_2_alg».proof.Proof.UnfoldArray
import Idealize.ShloMosaic.Adequacy
import Idealize.ShloMosaic.Init

noncomputable section

namespace Cert.Proof

open Idealize.ShloMosaic Idealize.ShloMosaic.TcCoe Idealize.SL.Sem

/-- The word-level kernel runs and leaves its argument unchanged. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference runs and leaves its argument unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the argument, both programs end at `unfolded` of it. -/
theorem algebraic : Cert.algebraic_KernelIdeal_ReferenceIdeal := by
  intro m ρ m' ρ' _ hagree
  refine ⟨fun c => Cert.UnfoldSpec.unfolded (Cert.UnfoldArray.arg m c), Cert.UnfoldArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v58_eq, Cert.UnfoldRef.reference_unfolded, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
